-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1000 : Shape := ⟨2, ![1024, 1000]⟩
abbrev S1000 : Shape := ⟨1, ![1000]⟩
abbrev S1024x100 : Shape := ⟨2, ![1024, 100]⟩
abbrev S100 : Shape := ⟨1, ![100]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1000 : S_.BroadcastsInDim S1024x1000 (![] : Fin 0 → Fin S1024x1000.rank)
  reducesTo_S1024x1000_S_d0_1 : S1024x1000.ReducesTo [0, 1] S_
  bcast_S_S1000 : S_.BroadcastsInDim S1000 (![] : Fin 0 → Fin S1000.rank)
  reducesTo_S1000_S_d0 : S1000.ReducesTo [0] S_
  bcast_S_S1024x100 : S_.BroadcastsInDim S1024x100 (![] : Fin 0 → Fin S1024x100.rank)
  reducesTo_S1024x100_S_d0_1 : S1024x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S100 .f32) (main_arg5 : IVec S1000 32) (main_v13 : IVec S_ 1) (main_v16 : IVec S1024x100 1) : IVec S_ 1 :=
  let main_c_5 : IVec S_ 1 := constantI S_ 1 1#1
  let main_v17 : IVec S_ 1 := (fun x v => Host.reduce IntOp.andi x v reducesTo_S1024x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_c_8 : IVec S_ 32 := constantI S_ 32 0#32
  let main_v24 : IVec S1000 32 := broadcastInDim S1000 ![] bcast_S_S1000 main_c_8
  let main_v25 : IVec S1000 1 := cmpi .sge main_arg5 main_v24
  let main_c_9 : IVec S_ 1 := constantI S_ 1 1#1
  let main_v26 : IVec S_ 1 := (fun x v => Host.reduce IntOp.andi x v reducesTo_S1000_S_d0 h_S_) main_v25 main_c_9
  let main_v27 : IVec S_ 1 := andi main_v23 main_v26
  let main_c_10 : IVec S_ 32 := constantI S_ 32 100#32
  let main_v28 : IVec S1000 32 := broadcastInDim S1000 ![] bcast_S_S1000 main_c_10
  let main_v29 : IVec S1000 1 := cmpi .slt main_arg5 main_v28
  let main_c_11 : IVec S_ 1 := constantI S_ 1 1#1
  let main_v30 : IVec S_ 1 := (fun x v => Host.reduce IntOp.andi x v reducesTo_S1000_S_d0 h_S_) main_v29 main_c_11
  let main_v31 : IVec S_ 1 := andi main_v27 main_v30
  main_v31

def fn {F : FTy → Type} [FloatOps F] (main_arg0 : FVec F S4096x1024 .f32) (main_arg1 : FVec F S1024x1000 .f32) (main_arg2 : FVec F S1000 .f32) (main_arg3 : FVec F S1024x100 .f32) (main_arg4 : FVec F S100 .f32) (main_arg5 : IVec S1000 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1000 .f32 := Host.absf main_arg1
  let main_cst_0 : FVec F S_ .f32 := constant S_ .f32 0x7F800000#32
  let main_v5 : FVec F S1024x1000 .f32 := broadcastInDim S1024x1000 ![] bcast_S_S1024x1000 main_cst_0
  let main_v6 : IVec S1024x1000 1 := cmpf .olt main_v4 main_v5
  let main_c_1 : IVec S_ 1 := constantI S_ 1 1#1
  let main_v7 : IVec S_ 1 := (fun x v => Host.reduce IntOp.andi x v reducesTo_S1024x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S1024x100 .f32 := Host.absf main_arg3
  let main_cst_4 : FVec F S_ .f32 := constant S_ .f32 0x7F800000#32
  let main_v15 : FVec F S1024x100 .f32 := broadcastInDim S1024x100 ![] bcast_S_S1024x100 main_cst_4
  let main_v16 : IVec S1024x100 1 := cmpf .olt main_v14 main_v15
  fn_part1 (F := F) main_arg4 main_arg5 main_v13 main_v16
-- ==== Kernel.lean ====
abbrev S4096x1024 : Shape := ⟨2, ![4096, 1024]⟩
abbrev S1024x1000 : Shape := ⟨2, ![1024, 1000]⟩
abbrev S1000 : Shape := ⟨1, ![1000]⟩
abbrev S1024x100 : Shape := ⟨2, ![1024, 100]⟩
abbrev S100 : Shape := ⟨1, ![100]⟩
abbrev S1x1000 : Shape := ⟨2, ![1, 1000]⟩
abbrev S1x100 : Shape := ⟨2, ![1, 100]⟩
abbrev S4096x1000 : Shape := ⟨2, ![4096, 1000]⟩
abbrev S4096x100 : Shape := ⟨2, ![4096, 100]⟩
abbrev S512x1024 : Shape := ⟨2, ![512, 1024]⟩
abbrev S512x1000 : Shape := ⟨2, ![512, 1000]⟩
abbrev S512x100 : Shape := ⟨2, ![512, 100]⟩
abbrev S512 : Shape := ⟨1, ![512]⟩
abbrev S512x1 : Shape := ⟨2, ![512, 1]⟩
abbrev S100x1000 : Shape := ⟨2, ![100, 1000]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1000, .f32⟩
  | .hbm, ⟨2, _⟩ => ⟨S1000, .f32⟩
  | .hbm, ⟨3, _⟩ => ⟨S1024x100, .f32⟩
  | .hbm, ⟨4, _⟩ => ⟨S100, .f32⟩
  | .hbm, ⟨5, _⟩ => ⟨S1000, .i32⟩
  | .hbm, ⟨6, _⟩ => ⟨S1x1000, .f32⟩
  | .hbm, ⟨7, _⟩ => ⟨S1x100, .f32⟩
  | .hbm, ⟨8, _⟩ => ⟨S1x1000, .i32⟩
  | .hbm, ⟨9, _⟩ => ⟨S4096x1000, .f32⟩
  | .hbm, ⟨10, _⟩ => ⟨S4096x1000, .f32⟩
  | .hbm, ⟨11, _⟩ => ⟨S4096x100, .f32⟩
  | .local _ .vmem, ⟨0, _⟩ => ⟨S512x1024, .f32⟩
  | .local _ .vmem, ⟨1, _⟩ => ⟨S512x1024, .f32⟩
  | .local _ .vmem, ⟨2, _⟩ => ⟨S1024x1000, .f32⟩
  | .local _ .vmem, ⟨3, _⟩ => ⟨S1x1000, .f32⟩
  | .local _ .vmem, ⟨4, _⟩ => ⟨S1024x100, .f32⟩
  | .local _ .vmem, ⟨5, _⟩ => ⟨S1x100, .f32⟩
  | .local _ .vmem, ⟨6, _⟩ => ⟨S1x1000, .i32⟩
  | .local _ .vmem, ⟨7, _⟩ => ⟨S512x1000, .f32⟩
  | .local _ .vmem, ⟨8, _⟩ => ⟨S512x1000, .f32⟩
  | .local _ .vmem, ⟨9, _⟩ => ⟨S512x1000, .f32⟩
  | .local _ .vmem, ⟨10, _⟩ => ⟨S512x1000, .f32⟩
  | .local _ .vmem, ⟨11, _⟩ => ⟨S512x100, .f32⟩
  | .local _ .vmem, ⟨12, _⟩ => ⟨S512x100, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1000 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1000_S1x1000 : S1000.ShapeCasts S1x1000
  shapeCasts_S100_S1x100 : S100.ShapeCasts S1x100
  inb_S512x1024_S512x1024_0_0 : ∀ a, (![0, 0] : Fin 2 → Nat) a + S512x1024.size a ≤ S512x1024.size a
  h_S512x1024 : 0 < S512x1024.numel
  inb_S1024x100_S1024x100_0_0 : ∀ a, (![0, 0] : Fin 2 → Nat) a + S1024x100.size a ≤ S1024x100.size a
  h_S1024x100 : 0 < S1024x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S512x100 : S1x100.Broadcasts S512x100
  reduces_S512x100_S512 : S512x100.Reduces [1] S512
  shapeCasts_S512_S512x1 : S512.ShapeCasts S512x1
  broadcasts_S512x1_S512x100 : S512x1.Broadcasts S512x100
  inb_S512x100_S512x100_0_0 : ∀ a, (![0, 0] : Fin 2 → Nat) a + S512x100.size a ≤ S512x100.size a
  h_S512x100 : 0 < S512x100.numel
  inb_S1024x1000_S1024x1000_0_0 : ∀ a, (![0, 0] : Fin 2 → Nat) a + S1024x1000.size a ≤ S1024x1000.size a
  h_S1024x1000 : 0 < S1024x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  reduces_S512x1000_S512 : S512x1000.Reduces [1] S512
  broadcasts_S512x1_S512x1000 : S512x1.Broadcasts S512x1000
  inb_S512x1000_S512x1000_0_0 : ∀ a, (![0, 0] : Fin 2 → Nat) a + S512x1000.size a ≤ S512x1000.size a
  h_S512x1000 : 0 < S512x1000.numel
  iota_S100x1000_d0_w32 : S100x1000.Iotas .tc 32 [0]
  broadcasts_S1x1000_S100x1000 : S1x1000.Broadcasts S100x1000
  natLt_1_32 : 1 < 32
  dot_S512x1024_S1024x100_S512x100_1_0_0_1_n_n_wf : DotDims.WF S512x1024 S1024x100 S512x100 [1] [0] [0] [1] [] []
  dot_S512x1024_S1024x1000_S512x1000_1_0_0_1_n_n_wf : DotDims.WF S512x1024 S1024x1000 S512x1000 [1] [0] [0] [1] [] []
  dot_S512x100_S100x1000_S512x1000_1_0_0_1_n_n_wf : DotDims.WF S512x100 S100x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S1024x1000.size a
  hwx0_1 : ∀ i : grid0.Coords, EltTy.bits .f32 = 32 ∨ (Rect.block (s := S1024x1000) S1024x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S1024x100.size a
  hwx0_3 : ∀ i : grid0.Coords, EltTy.bits .f32 = 32 ∨ (Rect.block (s := S1024x100) S1024x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1000.size a ≤ S1x1000.size a
  hwx0_5 : ∀ i : grid0.Coords, EltTy.bits .i32 = 32 ∨ (Rect.block (s := S1x1000) S1x1000.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1000.size a ≤ S4096x1000.size a
  hwx0_6 : ∀ i : grid0.Coords, EltTy.bits .f32 = 32 ∨ (Rect.block (s := S4096x1000) S512x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1000.size a ≤ S4096x1000.size a
  hwx0_7 : ∀ i : grid0.Coords, EltTy.bits .f32 = 32 ∨ (Rect.block (s := S4096x1000) S512x1000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x100.size a ≤ S4096x100.size a
  hwx0_8 : ∀ i : grid0.Coords, EltTy.bits .f32 = 32 ∨ (Rect.block (s := S4096x100) S512x100.size (cc0_transform_8 i) (hinb0_8 i)).WholeWords (EltTy.packing .f32)

variable [Facts₀]

def dot_S512x1024_S1024x100_S512x100_1_0_0_1_n_n : DotDims S512x1024 S1024x100 S512x100 where
  lhsContracting := [1]
  rhsContracting := [0]
  lhsNonContracting := [0]
  rhsNonContracting := [1]
  lhsBatch := []
  rhsBatch := []
  wf := dot_S512x1024_S1024x100_S512x100_1_0_0_1_n_n_wf
def dot_S512x1024_S1024x1000_S512x1000_1_0_0_1_n_n : DotDims S512x1024 S1024x1000 S512x1000 where
  lhsContracting := [1]
  rhsContracting := [0]
  lhsNonContracting := [0]
  rhsNonContracting := [1]
  lhsBatch := []
  rhsBatch := []
  wf := dot_S512x1024_S1024x1000_S512x1000_1_0_0_1_n_n_wf
def dot_S512x100_S100x1000_S512x1000_1_0_0_1_n_n : DotDims S512x100 S100x1000 S512x1000 where
  lhsContracting := [1]
  rhsContracting := [0]
  lhsNonContracting := [0]
  rhsNonContracting := [1]
  lhsBatch := []
  rhsBatch := []
  wf := dot_S512x100_S100x1000_S512x1000_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S512x1000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S512x1000.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S512x100.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1000 : Shape := ⟨2, ![1024, 1000]⟩
abbrev S1000 : Shape := ⟨1, ![1000]⟩
abbrev S1024x100 : Shape := ⟨2, ![1024, 100]⟩
abbrev S100 : Shape := ⟨1, ![100]⟩
abbrev S4096x1000 : Shape := ⟨2, ![4096, 1000]⟩
abbrev S1x1000 : Shape := ⟨2, ![1, 1000]⟩
abbrev S_ : Shape := ⟨0, ![]⟩
abbrev S4096 : Shape := ⟨1, ![4096]⟩
abbrev S4096x1 : Shape := ⟨2, ![4096, 1]⟩
abbrev S4096x100 : Shape := ⟨2, ![4096, 100]⟩
abbrev S1x100 : Shape := ⟨2, ![1, 100]⟩
abbrev S1000x1 : Shape := ⟨2, ![1000, 1]⟩
abbrev S1 : Shape := ⟨1, ![1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1000, .f32⟩
  | .hbm, ⟨2, _⟩ => ⟨S1000, .f32⟩
  | .hbm, ⟨3, _⟩ => ⟨S1024x100, .f32⟩
  | .hbm, ⟨4, _⟩ => ⟨S100, .f32⟩
  | .hbm, ⟨5, _⟩ => ⟨S1000, .i32⟩
  | .hbm, ⟨6, _⟩ => ⟨S4096x1000, .f32⟩
  | .hbm, ⟨7, _⟩ => ⟨S1x1000, .f32⟩
  | .hbm, ⟨8, _⟩ => ⟨S4096x1000, .f32⟩
  | .hbm, ⟨9, _⟩ => ⟨S4096x1000, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x1000, .f32⟩
  | .hbm, ⟨17, _⟩ => ⟨S4096x1000, .f32⟩
  | .hbm, ⟨18, _⟩ => ⟨S4096x1000, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x1000, .f32⟩
  | .hbm, ⟨23, _⟩ => ⟨S4096x1000, .f32⟩
  | .hbm, ⟨24, _⟩ => ⟨S4096x100, .f32⟩
  | .hbm, ⟨25, _⟩ => ⟨S1x100, .f32⟩
  | .hbm, ⟨26, _⟩ => ⟨S4096x100, .f32⟩
  | .hbm, ⟨27, _⟩ => ⟨S4096x100, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x100, .f32⟩
  | .hbm, ⟨35, _⟩ => ⟨S4096x100, .f32⟩
  | .hbm, ⟨36, _⟩ => ⟨S4096x100, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x100, .f32⟩
  | .hbm, ⟨41, _⟩ => ⟨S4096x100, .f32⟩
  | .hbm, ⟨42, _⟩ => ⟨S_, .i32⟩
  | .hbm, ⟨43, _⟩ => ⟨S1000, .i32⟩
  | .hbm, ⟨44, _⟩ => ⟨S1000, .i1⟩
  | .hbm, ⟨45, _⟩ => ⟨S_, .i32⟩
  | .hbm, ⟨46, _⟩ => ⟨S1000, .i32⟩
  | .hbm, ⟨47, _⟩ => ⟨S1000, .i32⟩
  | .hbm, ⟨48, _⟩ => ⟨S1000, .i32⟩
  | .hbm, ⟨49, _⟩ => ⟨S1000x1, .i32⟩
  | .hbm, ⟨50, _⟩ => ⟨S1, .i32⟩
  | .hbm, ⟨51, _⟩ => ⟨S_, .i32⟩
  | .hbm, ⟨52, _⟩ => ⟨S1000x1, .i32⟩
  | .hbm, ⟨53, _⟩ => ⟨S1000x1, .i1⟩
  | .hbm, ⟨54, _⟩ => ⟨S1x1, .i32⟩
  | .hbm, ⟨55, _⟩ => ⟨S1000x1, .i32⟩
  | .hbm, ⟨56, _⟩ => ⟨S1000x1, .i1⟩
  | .hbm, ⟨57, _⟩ => ⟨S1000x1, .i1⟩
  | .hbm, ⟨58, _⟩ => ⟨S_, .i1⟩
  | .hbm, ⟨59, _⟩ => ⟨S1000, .i1⟩
  | .hbm, ⟨60, _⟩ => ⟨S4096x1000, .f32⟩
  | .hbm, ⟨61, _⟩ => ⟨S4096x1000, .i1⟩
  | .hbm, ⟨62, _⟩ => ⟨S_, .f32⟩
  | .hbm, ⟨63, _⟩ => ⟨S4096x1000, .f32⟩
  | .hbm, ⟨64, _⟩ => ⟨S4096x1000, .f32⟩
  | .hbm, ⟨65, _⟩ => ⟨S_, .f32⟩
  | .hbm, ⟨66, _⟩ => ⟨S4096x1000, .f32⟩
  | .hbm, ⟨67, _⟩ => ⟨S4096x1000, .f32⟩
  | .hbm, ⟨68, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  reducesTo_S4096x1000_S4096_d1 : S4096x1000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1000_0_1 : S4096x1.BroadcastsInDim S4096x1000 (![0, 1] : Fin 2 → Fin S4096x1000.rank)
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  reducesTo_S4096x100_S4096_d1 : S4096x100.ReducesTo [1] S4096
  bcast_S4096x1_S4096x100_0_1 : S4096x1.BroadcastsInDim S4096x100 (![0, 1] : Fin 2 → Fin S4096x100.rank)
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  bcast_S1000_S4096x1000_1 : S1000.BroadcastsInDim S4096x1000 (![1] : Fin 1 → Fin S4096x1000.rank)
  bcast_S_S4096x1000 : S_.BroadcastsInDim S4096x1000 (![] : Fin 0 → Fin S4096x1000.rank)
  dot_S4096x1024_S1024x1000_S4096x1000_1_0_0_1_n_n_wf : DotDims.WF S4096x1024 S1024x1000 S4096x1000 [1] [0] [0] [1] [] []
  dot_S4096x1024_S1024x100_S4096x100_1_0_0_1_n_n_wf : DotDims.WF S4096x1024 S1024x100 S4096x100 [1] [0] [0] [1] [] []
  gather_S4096x100_S1000x1_S4096x1000_0_1_n_n_1_1_40961_wf : GatherDims.WF S4096x100 S1000x1 S4096x1000 [0] [1] [] [1] [] 1 ![4096, 1]

variable [Facts₀]

def dot_S4096x1024_S1024x1000_S4096x1000_1_0_0_1_n_n : DotDims S4096x1024 S1024x1000 S4096x1000 where
  lhsContracting := [1]
  rhsContracting := [0]
  lhsNonContracting := [0]
  rhsNonContracting := [1]
  lhsBatch := []
  rhsBatch := []
  wf := dot_S4096x1024_S1024x1000_S4096x1000_1_0_0_1_n_n_wf
def dot_S4096x1024_S1024x100_S4096x100_1_0_0_1_n_n : DotDims S4096x1024 S1024x100 S4096x100 where
  lhsContracting := [1]
  rhsContracting := [0]
  lhsNonContracting := [0]
  rhsNonContracting := [1]
  lhsBatch := []
  rhsBatch := []
  wf := dot_S4096x1024_S1024x100_S4096x100_1_0_0_1_n_n_wf
def gather_S4096x100_S1000x1_S4096x1000_0_1_n_n_1_1_40961 : GatherDims S4096x100 S1000x1 S4096x1000 where
  offsetDims := [0]
  collapsedSliceDims := [1]
  operandBatchingDims := []
  startIndicesBatchingDims := []
  startIndexMap := [1]
  indexVectorDim := 1
  sliceSizes := ![4096, 1]
  wf := gather_S4096x100_S1000x1_S4096x1000_0_1_n_n_1_1_40961_wf

class Facts : Prop extends Facts₀ where

variable [Facts]
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.LibSoftmaxRows.lean ====
/-
  SOFTMAX ALONG THE ROWS OF A MATRIX, READ AT AN ELEMENT.

  For a row x of n extended reals put  m = max(-inf, max_k x_k)  (the maximum taken from minus infinity, as both a
  vector reduction and a host reduction take it) and  softmax(x)_d = exp(x_d - m) / sum_k exp(x_k - m).
  A kernel block computes this with a lane maximum, a keep-dims column re-laid and spread over the columns, an
  exponential, a lane sum and a quotient; a host program with a reduce by maximum, a maximum with a splat of minus
  infinity, two broadcasts, an exponential, a reduce by addition from zero and a quotient. Both, read at (r, c) at the
  ideal values, are  softmaxRow (row r) c.
-/
import Idealize.ShloMosaic.PureOps.Ideal.Laws
import Idealize.ShloMosaic.Lib.Pipeline.Value
import Idealize.ShloMosaic.Lib.ValueIdx
import Idealize.ShloMosaic.Lib.IdealHost
import proofs.«138481_g19292993093736_cont_8to1_34_2_alg».proof.Proof.LibColBroadcast
import proofs.«138481_g19292993093736_cont_8to1_34_2_alg».proof.Proof.LibHostRead

noncomputable section

open scoped BigOperators

namespace Cert.Lib

open Idealize.ShloMosaic Idealize.ShloMosaic.ValueIdx

/-- The maximum of a row, taken from minus infinity (the f32 word 0xFF800000) and met once more with it. -/
def rowMax {n : ℕ} (x : Fin n → EReal) : EReal :=
  max (Ideal.ofBits .f32 0xFF800000#32) ((Finset.univ : Finset (Fin n)).fold max (Ideal.ofBits .f32 0xFF800000#32) x)

/-- Softmax of a row at entry d: exp (x d - max) over the sum of exp (x k - max). -/
def softmaxRow {n : ℕ} (x : Fin n → EReal) (d : Fin n) : EReal :=
  Ideal.div (Ideal.exp (x d - rowMax x)) (∑ k : Fin n, Ideal.exp (x k - rowMax x))

/-- Inserting the column k into the row index r of an R-by-C matrix gives (r, k). -/
theorem lift_row {R C : ℕ} (h : (⟨2, ![R, C]⟩ : Shape).Reduces [(1 : Fin 2)] ⟨1, ![R]⟩) (r : Fin R)
    (k : Fin ((⟨2, ![R, C]⟩ : Shape).size (1 : Fin 2))) :
    h.lift (ix1 r) k = ix2 r (⟨k.val, k.isLt⟩ : Fin C) := by
  funext c
  apply Fin.ext
  rw [Shape.Reduces.lift_val]
  unfold Shape.Reduces.liftVal
  match c with
  | ⟨0, _⟩ => simp
  | ⟨1, _⟩ => simp

/-- A vector of R numbers re-laid as an R-by-1 column and spread over C columns holds, at (p, c), its entry p. -/
theorem colOfVec_apply {α : Type} {R C : ℕ} (v : (⟨1, ![R]⟩ : Shape).Idx → α)
    (hsc : (⟨1, ![R]⟩ : Shape).ShapeCasts ⟨2, ![R, 1]⟩) (hbc : (⟨2, ![R, 1]⟩ : Shape).Broadcasts ⟨2, ![R, C]⟩)
    (p : Fin R) (c : Fin C) :
    broadcastTo ⟨2, ![R, C]⟩ (shapeCast ⟨2, ![R, 1]⟩ v hsc) hbc (ix2 p c) = v (ix1 p) := by
  rw [broadcastTo_a1_ab_apply]
  refine shapeCast_apply v hsc (ix2 p (0 : Fin 1)) (ix1 p) ?_
  rw [Shape.rowMajor_val_two, Shape.rowMajor_val_one]
  show p.val = p.val * 1 + 0
  omega

/-! ## The kernel's spelling -/

/-- The kernel's row maxima as a matrix: the lane maximum from minus infinity, met with a splat of minus infinity,
    re-laid as a column and spread over the columns. -/
abbrev kMaxSpread {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩) :
    FVec Ideal ⟨2, ![R, C]⟩ .f32 :=
  broadcastTo ⟨2, ![R, C]⟩ (shapeCast ⟨2, ![R, 1]⟩
    (maximumf (broadcast ⟨1, ![R]⟩ (Scalar.ofBits (F := Ideal) .f32 0xFF800000#32))
      (multiReduction .maximumf [(1 : Fin 2)] ⟨1, ![R]⟩ x 0xFF800000#32 hred hφ haccM)) hsc) hbc

theorem kMaxSpread_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩)
    (p : Fin R) (k : Fin C) :
    kMaxSpread x hred hφ haccM hsc hbc (ix2 p k) = rowMax (fun k => x (ix2 p k)) := by
  show broadcastTo ⟨2, ![R, C]⟩ (shapeCast ⟨2, ![R, 1]⟩ _ hsc) hbc (ix2 p k) = _
  rw [colOfVec_apply]
  show max (Ideal.ofBits .f32 0xFF800000#32)
    (multiReduction .maximumf [(1 : Fin 2)] ⟨1, ![R]⟩ x 0xFF800000#32 hred hφ haccM (ix1 p)) = _
  rw [Ideal.multiReduction_maximumf_single]
  have e : (x ∘ hred.lift (ix1 p)) = fun k : Fin C => x (ix2 p k) :=
    funext fun k => congrArg x (lift_row hred p k)
  rw [e]
  rfl

/-- The kernel's softmax of a block's rows, read at (r, c). -/
theorem kernelSoftmax_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (haccA : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, C]⟩)
    (r : Fin R) (c : Fin C) :
    divf (exp (subf x (kMaxSpread x hred hφ haccM hsc hbc)))
      (broadcastTo ⟨2, ![R, C]⟩ (shapeCast ⟨2, ![R, 1]⟩
        (multiReduction .add [(1 : Fin 2)] ⟨1, ![R]⟩ (exp (subf x (kMaxSpread x hred hφ haccM hsc hbc)))
          0x00000000#32 hred hφ haccA) hsc) hbc) (ix2 r c)
      = softmaxRow (fun k => x (ix2 r k)) c := by
  have hm := kMaxSpread_apply x hred hφ haccM hsc hbc
  show Ideal.div (Ideal.exp (x (ix2 r c) - kMaxSpread x hred hφ haccM hsc hbc (ix2 r c)))
    (broadcastTo ⟨2, ![R, C]⟩ (shapeCast ⟨2, ![R, 1]⟩ _ hsc) hbc (ix2 r c)) = _
  rw [hm r c, colOfVec_apply, Ideal.multiReduction_add_single]
  unfold softmaxRow
  refine congrArg (Ideal.div _) (Finset.sum_congr rfl fun k _ => ?_)
  rw [lift_row hred r k]
  show Ideal.exp (x (ix2 r ⟨k.val, k.isLt⟩) - kMaxSpread x hred hφ haccM hsc hbc (ix2 r ⟨k.val, k.isLt⟩)) = _
  rw [hm r ⟨k.val, k.isLt⟩]
  rfl

/-! ## The host's spelling -/

/-- The host's row maxima as a matrix: a reduce by maximum from minus infinity, met with a splat of minus infinity,
    broadcast to a column and then over the columns. -/
abbrev hMaxSpread {R C : ℕ} (x : FVec Ideal ⟨2, ![R, C]⟩ .f32)
    (h' : (⟨2, ![R, C]⟩ : Shape).ReducesTo [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) : FVec Ideal ⟨2, ![R, C]⟩ .f32 :=
  broadcastInDim ⟨2, ![R, C]⟩ ![0, 1] hb2 (broadcastInDim ⟨2, ![R, 1]⟩ ![0] hb1
    (maximumf (broadcastInDim ⟨1, ![R]⟩ ![] hb0 (constant (F := Ideal) ⟨0, ![]⟩ .f32 0xFF800000#32))
      (Host.reduce FloatOps.maximumf x (constant (F := Ideal) ⟨0, ![]⟩ .f32 0xFF800000#32) h' hS)))

theorem hMaxSpread_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (p : Fin R) (k : Fin C) :
    hMaxSpread x h' hS hb0 hb1 hb2 (ix2 p k) = rowMax (fun k => x (ix2 p k)) := by
  show broadcastInDim ⟨2, ![R, C]⟩ ![0, 1] hb2 (broadcastInDim (s := ⟨1, ![R]⟩) ⟨2, ![R, 1]⟩ ![0] hb1 _) (ix2 p k) = _
  rw [colSpread_apply ![0] rfl hb1 ![0, 1] rfl rfl hb2]
  show max (broadcastInDim ⟨1, ![R]⟩ ![] hb0 (constant (F := Ideal) ⟨0, ![]⟩ .f32 0xFF800000#32) (ix1 p))
    (Host.reduce FloatOps.maximumf x (constant (F := Ideal) ⟨0, ![]⟩ .f32 0xFF800000#32) h' hS (ix1 p)) = _
  rw [splat_apply, Host.reduce_eq_fold_single FloatOps.maximumf x _ h' hred hS (ix1 p)]
  have e : (x ∘ hred.lift (ix1 p)) = fun k : Fin C => x (ix2 p k) :=
    funext fun k => congrArg x (lift_row hred p k)
  rw [e]
  rfl

/-- The host's softmax of a matrix's rows, read at (r, c). -/
theorem hostSoftmax_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (r : Fin R) (c : Fin C) :
    Host.divf (Host.exp (subf x (hMaxSpread x h' hS hb0 hb1 hb2)))
      (broadcastInDim ⟨2, ![R, C]⟩ ![0, 1] hb2 (broadcastInDim ⟨2, ![R, 1]⟩ ![0] hb1
        (Host.reduceAdd (Host.exp (subf x (hMaxSpread x h' hS hb0 hb1 hb2)))
          (constant (F := Ideal) ⟨0, ![]⟩ .f32 0x00000000#32) h' hS))) (ix2 r c)
      = softmaxRow (fun k => x (ix2 r k)) c := by
  have hm := hMaxSpread_apply x h' hred hS hb0 hb1 hb2
  show Ideal.div (Ideal.exp (x (ix2 r c) - hMaxSpread x h' hS hb0 hb1 hb2 (ix2 r c)))
    (broadcastInDim ⟨2, ![R, C]⟩ ![0, 1] hb2 (broadcastInDim (s := ⟨1, ![R]⟩) ⟨2, ![R, 1]⟩ ![0] hb1 _) (ix2 r c)) = _
  rw [hm r c, colSpread_apply ![0] rfl hb1 ![0, 1] rfl rfl hb2]
  simp only [Host.reduceAdd, Ideal.hostReduceAdd_def]
  rw [Ideal.hostReduceAdd_single h' hred]
  show Ideal.div _ (Ideal.ofBits .f32 0x00000000#32 + _) = _
  rw [Ideal.ofBits_zero_f32, zero_add]
  unfold softmaxRow
  refine congrArg (Ideal.div _) (Finset.sum_congr rfl fun k _ => ?_)
  rw [lift_row hred r k]
  show Ideal.exp (x (ix2 r ⟨k.val, k.isLt⟩) - hMaxSpread x h' hS hb0 hb1 hb2 (ix2 r ⟨k.val, k.isLt⟩)) = _
  rw [hm r ⟨k.val, k.isLt⟩]
  rfl

end Cert.Lib

end
-- ==== Proof.Spec.lean ====
/-
  WHAT THE CLASSIFIER COMPUTES, ENTRY BY ENTRY, ON THE EXTENDED REALS.

  A row x of 1024 inputs has, for a weight matrix W and a bias b, the logits  l_n = (sum_k x_k W_kn) + b_n,  and
  its probabilities are the softmax of that row of logits. The class head (1000 classes, W1, b1) and the type head
  (100 types, W2, b2) are two such softmaxes of the same input row. Every class c has a type id(c), an index below
  100, and the result's entry (r, c) is

      classProb(r, c) * (typeProb(r, id(c)) + eps),      eps the f32 word 0x322BCC77.

  Reading a type's probability by its id and summing the type probabilities against the indicator of "id(c) = t"
  are the same number: all terms of the sum but one are a product with zero (`pick_eq_sum`). No finiteness is used:
  x * 0 = 0 and x * 1 = x hold for every extended real.
-/
import Idealize.ShloMosaic.PureOps.Ideal
import Idealize.ShloMosaic.Lib.ValueIdx
import proofs.«138481_g19292993093736_cont_8to1_34_2_alg».proof.Proof.LibSoftmaxRows

noncomputable section

open scoped BigOperators

namespace Cert.Spec

open Idealize.ShloMosaic Idealize.ShloMosaic.ValueIdx Cert.Lib

/-- Logit n of an input row: the row against column n of the weights, plus the bias. -/
def logit {K N : ℕ} (x : Fin K → EReal) (W : Fin K → Fin N → EReal) (b : Fin N → EReal) (n : Fin N) : EReal :=
  (∑ k : Fin K, x k * W k n) + b n

/-- Row r of an R-by-K matrix. -/
def rowOf {R K : ℕ} (X : (⟨2, ![R, K]⟩ : Shape).Idx → EReal) (r : Fin R) : Fin K → EReal := fun k => X (ix2 r k)

/-- A K-by-N matrix by coordinates. -/
def matOf {K N : ℕ} (W : (⟨2, ![K, N]⟩ : Shape).Idx → EReal) : Fin K → Fin N → EReal := fun k n => W (ix2 k n)

/-- A vector by coordinate. -/
def vecOf {N : ℕ} (b : (⟨1, ![N]⟩ : Shape).Idx → EReal) : Fin N → EReal := fun n => b (ix1 n)

/-- Probability n of row r under one head: the softmax of the row's logits. -/
def probAt {R K N : ℕ} (X : (⟨2, ![R, K]⟩ : Shape).Idx → EReal) (W : (⟨2, ![K, N]⟩ : Shape).Idx → EReal)
    (b : (⟨1, ![N]⟩ : Shape).Idx → EReal) (r : Fin R) (n : Fin N) : EReal :=
  softmaxRow (logit (rowOf X r) (matOf W) (vecOf b)) n

/-- The entry of p that a 32-bit type id names; zero for a word that is not an index below 100. -/
def pick (p : Fin 100 → EReal) (w : BitVec 32) : EReal :=
  if h : w.toNat < 100 then p ⟨w.toNat, h⟩ else 0

theorem pick_ofNat (p : Fin 100 → EReal) (t : Fin 100) : pick p (BitVec.ofNat 32 t.val) = p t := by
  have h : (BitVec.ofNat 32 t.val).toNat = t.val := by
    rw [BitVec.toNat_ofNat]; exact Nat.mod_eq_of_lt (by omega)
  unfold pick
  rw [dif_pos (by rw [h]; exact t.isLt)]
  exact congrArg p (Fin.ext h)

/-- The indicator of "the id is t" as an extended real. -/
def onehot (w : BitVec 32) (t : Fin 100) : EReal := if w = BitVec.ofNat 32 t.val then 1 else 0

/-- Summing p against the indicator of the id picks the id's entry. -/
theorem pick_eq_sum (p : Fin 100 → EReal) (t₀ : Fin 100) :
    ∑ t : Fin 100, p t * onehot (BitVec.ofNat 32 t₀.val) t = pick p (BitVec.ofNat 32 t₀.val) := by
  rw [pick_ofNat, Finset.sum_eq_single t₀]
  · unfold onehot; rw [if_pos rfl, mul_one]
  · intro t _ hne
    unfold onehot
    rw [if_neg, mul_zero]
    intro h
    apply hne
    have := congrArg BitVec.toNat h
    rw [BitVec.toNat_ofNat, BitVec.toNat_ofNat, Nat.mod_eq_of_lt (by omega), Nat.mod_eq_of_lt (by omega)] at this
    exact Fin.ext this.symm
  · intro h; exact absurd (Finset.mem_univ _) h

/-- The additive constant of the last line. -/
def eps : EReal := Ideal.ofBits .f32 0x322BCC77#32

/-- Entry (r, c) of the result: the class probability times the class's type probability plus eps. -/
def finalAt (X : (⟨2, ![4096, 1024]⟩ : Shape).Idx → EReal) (W1 : (⟨2, ![1024, 1000]⟩ : Shape).Idx → EReal)
    (b1 : (⟨1, ![1000]⟩ : Shape).Idx → EReal) (W2 : (⟨2, ![1024, 100]⟩ : Shape).Idx → EReal)
    (b2 : (⟨1, ![100]⟩ : Shape).Idx → EReal) (id : (⟨1, ![1000]⟩ : Shape).Idx → BitVec 32)
    (r : Fin 4096) (c : Fin 1000) : EReal :=
  probAt X W1 b1 r c * (pick (probAt X W2 b2 r) (id (ix1 c)) + eps)

/-- The class probabilities as an array. -/
def classArr (X : (⟨2, ![4096, 1024]⟩ : Shape).Idx → EReal) (W1 : (⟨2, ![1024, 1000]⟩ : Shape).Idx → EReal)
    (b1 : (⟨1, ![1000]⟩ : Shape).Idx → EReal) : (⟨2, ![4096, 1000]⟩ : Shape).Idx → EReal :=
  fun i => probAt X W1 b1 (i 0) (i 1)

/-- The type probabilities as an array. -/
def typeArr (X : (⟨2, ![4096, 1024]⟩ : Shape).Idx → EReal) (W2 : (⟨2, ![1024, 100]⟩ : Shape).Idx → EReal)
    (b2 : (⟨1, ![100]⟩ : Shape).Idx → EReal) : (⟨2, ![4096, 100]⟩ : Shape).Idx → EReal :=
  fun i => probAt X W2 b2 (i 0) (i 1)

/-- The result as an array. -/
def finalArr (X : (⟨2, ![4096, 1024]⟩ : Shape).Idx → EReal) (W1 : (⟨2, ![1024, 1000]⟩ : Shape).Idx → EReal)
    (b1 : (⟨1, ![1000]⟩ : Shape).Idx → EReal) (W2 : (⟨2, ![1024, 100]⟩ : Shape).Idx → EReal)
    (b2 : (⟨1, ![100]⟩ : Shape).Idx → EReal) (id : (⟨1, ![1000]⟩ : Shape).Idx → BitVec 32) :
    (⟨2, ![4096, 1000]⟩ : Shape).Idx → EReal :=
  fun i => finalAt X W1 b1 W2 b2 id (i 0) (i 1)

theorem classArr_apply (X W1 b1) (r : Fin 4096) (c : Fin 1000) : classArr X W1 b1 (ix2 r c) = probAt X W1 b1 r c := rfl
theorem typeArr_apply (X W2 b2) (r : Fin 4096) (t : Fin 100) : typeArr X W2 b2 (ix2 r t) = probAt X W2 b2 r t := rfl
theorem finalArr_apply (X W1 b1 W2 b2 id) (r : Fin 4096) (c : Fin 1000) :
    finalArr X W1 b1 W2 b2 id (ix2 r c) = finalAt X W1 b1 W2 b2 id r c := rfl

end Cert.Spec

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«138481_g19292993093736_cont_8to1_34_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibSoftmaxLane.lean ====
/-
  SOFTMAX ALONG THE ROWS OF A BLOCK, THE LANE MAXIMUM USED AS IT IS.

  A kernel block takes the maximum of each row by a lane reduction started from minus infinity, re-lays it as a column,
  spreads it over the columns, subtracts, exponentiates, sums each row from zero and divides. Read at (r, c) at the
  ideal values this is  softmaxRow (row r) c : the row maximum taken from minus infinity is not changed by meeting it
  with minus infinity once more, because minus infinity is the least extended real.
-/
import Idealize.ShloMosaic.PureOps.Ideal.Laws
import Idealize.ShloMosaic.Lib.Pipeline.Value
import Idealize.ShloMosaic.Lib.ValueIdx
import proofs.«138481_g19292993093736_cont_8to1_34_2_alg».proof.Proof.LibSoftmaxRows

noncomputable section

open scoped BigOperators

namespace Cert.Lib

open Idealize.ShloMosaic Idealize.ShloMosaic.ValueIdx

/-- The f32 word 0xFF800000 is minus infinity, the least extended real. -/
theorem ofBits_negInf_f32 : Ideal.ofBits .f32 0xFF800000#32 = (⊥ : EReal) := by simp [Ideal.ofBits, Ideal.ieee]

/-- The row maximum from minus infinity, met with minus infinity again, is the row maximum from minus infinity. -/
theorem rowMax_eq_fold {n : ℕ} (x : Fin n → EReal) :
    rowMax x = (Finset.univ : Finset (Fin n)).fold max (Ideal.ofBits .f32 0xFF800000#32) x := by
  unfold rowMax
  rw [ofBits_negInf_f32]
  exact max_eq_right bot_le

/-- The block's row maxima as a matrix: the lane maximum from minus infinity, re-laid as a column and spread over the
    columns. -/
abbrev laneMaxSpread {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩) :
    FVec Ideal ⟨2, ![R, C]⟩ .f32 :=
  broadcastTo ⟨2, ![R, C]⟩ (shapeCast ⟨2, ![R, 1]⟩
    (multiReduction .maximumf [(1 : Fin 2)] ⟨1, ![R]⟩ x 0xFF800000#32 hred hφ haccM) hsc) hbc

theorem laneMaxSpread_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩)
    (p : Fin R) (k : Fin C) :
    laneMaxSpread x hred hφ haccM hsc hbc (ix2 p k) = rowMax (fun k => x (ix2 p k)) := by
  show broadcastTo ⟨2, ![R, C]⟩ (shapeCast ⟨2, ![R, 1]⟩ _ hsc) hbc (ix2 p k) = _
  rw [colOfVec_apply, Ideal.multiReduction_maximumf_single, rowMax_eq_fold]
  have e : (x ∘ hred.lift (ix1 p)) = fun k : Fin C => x (ix2 p k) :=
    funext fun k => congrArg x (lift_row hred p k)
  rw [e]
  rfl

/-- The block's softmax of its rows, read at (r, c). -/
theorem laneSoftmax_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (haccA : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, C]⟩)
    (r : Fin R) (c : Fin C) :
    divf (exp (subf x (laneMaxSpread x hred hφ haccM hsc hbc)))
      (broadcastTo ⟨2, ![R, C]⟩ (shapeCast ⟨2, ![R, 1]⟩
        (multiReduction .add [(1 : Fin 2)] ⟨1, ![R]⟩ (exp (subf x (laneMaxSpread x hred hφ haccM hsc hbc)))
          0x00000000#32 hred hφ haccA) hsc) hbc) (ix2 r c)
      = softmaxRow (fun k => x (ix2 r k)) c := by
  have hm := laneMaxSpread_apply x hred hφ haccM hsc hbc
  show Ideal.div (Ideal.exp (x (ix2 r c) - laneMaxSpread x hred hφ haccM hsc hbc (ix2 r c)))
    (broadcastTo ⟨2, ![R, C]⟩ (shapeCast ⟨2, ![R, 1]⟩ _ hsc) hbc (ix2 r c)) = _
  rw [hm r c, colOfVec_apply, Ideal.multiReduction_add_single]
  unfold softmaxRow
  refine congrArg (Ideal.div _) (Finset.sum_congr rfl fun k _ => ?_)
  rw [lift_row hred r k]
  show Ideal.exp (x (ix2 r ⟨k.val, k.isLt⟩) - laneMaxSpread x hred hφ haccM hsc hbc (ix2 r ⟨k.val, k.isLt⟩)) = _
  rw [hm r ⟨k.val, k.isLt⟩]
  rfl

end Cert.Lib

end
-- ==== Proof.KernelBody.lean ====
/-
  WHAT ONE GRID POINT COMPUTES, ENTRY BY ENTRY.

  A grid point holds 512 rows of the input, both weight matrices, both bias rows and the row of type ids. Its three
  stored blocks are: the type probabilities of its rows (softmax of  x·W2 + b2  along each row), the class
  probabilities (softmax of  x·W1 + b1), and the result block. For the result the point builds the 100-by-1000
  matrix whose entry (t, c) is 1 when class c's id is t and 0 otherwise, multiplies the type probabilities by it —
  entry (p, c) of that product is the sum over t of typeProb(p, t) times the indicator —, adds eps and multiplies by
  the class probabilities.
-/
import proofs.«138481_g19292993093736_cont_8to1_34_2_alg».proof.Proof.Gen.KernelIdeal.Skeleton
import proofs.«138481_g19292993093736_cont_8to1_34_2_alg».proof.Proof.Spec
import proofs.«138481_g19292993093736_cont_8to1_34_2_alg».proof.Proof.LibRowReads
import proofs.«138481_g19292993093736_cont_8to1_34_2_alg».proof.Proof.LibSoftmaxLane
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.Lib Cert.Spec
open Cert.KernelIdeal.Facts₀

/-! ## The logits of a block's rows -/

/-- The type head's logits of the block: the rows times W2, into zero, plus the bias row down the rows. -/
def logits2 (v0 : FVec Ideal S512x1024 .f32) (v1 : FVec Ideal S1024x100 .f32) (v3 : FVec Ideal S1x100 .f32) :
    FVec Ideal S512x100 .f32 :=
  addf (matmul dot_S512x1024_S1024x100_S512x100_1_0_0_1_n_n none v0 v1 (constant (F := Ideal) S512x100 .f32 0x00000000#32))
    (broadcastTo S512x100 (shapeCast S1x100 v3 shapeCasts_S1x100_S1x100) broadcasts_S1x100_S512x100)

/-- The class head's logits of the block. -/
def logits1 (v0 : FVec Ideal S512x1024 .f32) (v17 : FVec Ideal S1024x1000 .f32) (v19 : FVec Ideal S1x1000 .f32) :
    FVec Ideal S512x1000 .f32 :=
  addf (matmul dot_S512x1024_S1024x1000_S512x1000_1_0_0_1_n_n none v0 v17 (constant (F := Ideal) S512x1000 .f32 0x00000000#32))
    (broadcastTo S512x1000 (shapeCast S1x1000 v19 shapeCasts_S1x1000_S1x1000) broadcasts_S1x1000_S512x1000)

theorem logits2_at (v0 : FVec Ideal S512x1024 .f32) (v1 : FVec Ideal S1024x100 .f32) (v3 : FVec Ideal S1x100 .f32)
    (p : Fin 512) (n : Fin 100) :
    logits2 v0 v1 v3 (ix2 p n)
      = logit (fun k : Fin 1024 => v0 (ix2 p k)) (fun (k : Fin 1024) (n : Fin 100) => v1 (ix2 k n))
          (fun n : Fin 100 => v3 (ix2 (0 : Fin 1) n)) n := by
  show matmul dot_S512x1024_S1024x100_S512x100_1_0_0_1_n_n none v0 v1 (constant (F := Ideal) S512x100 .f32 0x00000000#32) (ix2 p n)
      + broadcastTo S512x100 (shapeCast S1x100 v3 shapeCasts_S1x100_S1x100) broadcasts_S1x100_S512x100 (ix2 p n) = _
  rw [matmul_zero_at dot_S512x1024_S1024x100_S512x100_1_0_0_1_n_n rfl rfl rfl rfl rfl rfl none v0 v1 p n,
    broadcastTo_1b_ab_apply, shapeCast_self]
  rfl

theorem logits1_at (v0 : FVec Ideal S512x1024 .f32) (v17 : FVec Ideal S1024x1000 .f32) (v19 : FVec Ideal S1x1000 .f32)
    (p : Fin 512) (n : Fin 1000) :
    logits1 v0 v17 v19 (ix2 p n)
      = logit (fun k : Fin 1024 => v0 (ix2 p k)) (fun (k : Fin 1024) (n : Fin 1000) => v17 (ix2 k n))
          (fun n : Fin 1000 => v19 (ix2 (0 : Fin 1) n)) n := by
  show matmul dot_S512x1024_S1024x1000_S512x1000_1_0_0_1_n_n none v0 v17 (constant (F := Ideal) S512x1000 .f32 0x00000000#32) (ix2 p n)
      + broadcastTo S512x1000 (shapeCast S1x1000 v19 shapeCasts_S1x1000_S1x1000) broadcasts_S1x1000_S512x1000 (ix2 p n) = _
  rw [matmul_zero_at dot_S512x1024_S1024x1000_S512x1000_1_0_0_1_n_n rfl rfl rfl rfl rfl rfl none v0 v17 p n,
    broadcastTo_1b_ab_apply, shapeCast_self]
  rfl

/-! ## The two probability blocks -/

/-- The type-probability block at (p, q): the softmax of row p's type logits, at q. -/
theorem typeBlock_at (v0 : FVec Ideal S512x1024 .f32) (v1 : FVec Ideal S1024x100 .f32) (v3 : FVec Ideal S1x100 .f32)
    (p : Fin 512) (q : Fin 100) :
    Gen.k0_pay2 (F := Ideal) v0 v1 v3 (ix2 p q)
      = softmaxRow (logit (fun k : Fin 1024 => v0 (ix2 p k)) (fun (k : Fin 1024) (n : Fin 100) => v1 (ix2 k n))
          (fun n : Fin 100 => v3 (ix2 (0 : Fin 1) n))) q := by
  refine (laneSoftmax_apply (R := 512) (C := 100) (logits2 v0 v1 v3) reduces_S512x100_S512 (.inl rfl) rfl rfl
    shapeCasts_S512_S512x1 broadcasts_S512x1_S512x100 p q).trans ?_
  exact congrArg (fun f => softmaxRow f q) (funext fun n => logits2_at v0 v1 v3 p n)

/-- The class-probability block at (p, c): the softmax of row p's class logits, at c. -/
theorem classBlock_at (v0 : FVec Ideal S512x1024 .f32) (v17 : FVec Ideal S1024x1000 .f32) (v19 : FVec Ideal S1x1000 .f32)
    (p : Fin 512) (c : Fin 1000) :
    Gen.k0_pay3 (F := Ideal) v0 v17 v19 (ix2 p c)
      = softmaxRow (logit (fun k : Fin 1024 => v0 (ix2 p k)) (fun (k : Fin 1024) (n : Fin 1000) => v17 (ix2 k n))
          (fun n : Fin 1000 => v19 (ix2 (0 : Fin 1) n))) c := by
  refine (laneSoftmax_apply (R := 512) (C := 1000) (logits1 v0 v17 v19) reduces_S512x1000_S512 (.inl rfl) rfl rfl
    shapeCasts_S512_S512x1 broadcasts_S512x1_S512x1000 p c).trans ?_
  exact congrArg (fun f => softmaxRow f c) (funext fun n => logits1_at v0 v17 v19 p n)

/-! ## The indicator matrix and the result block -/

/-- The matrix "class c has type t": the ids spread down 100 rows, compared with the row number, as 0 / 1. -/
def typeOfClass (v34 : IVec S1x1000 32) : FVec Ideal S100x1000 .f32 :=
  sitofp .f32 (extui 32 (cmpi .eq (broadcastTo S100x1000 v34 broadcasts_S1x1000_S100x1000)
    (iota .tc S100x1000 32 [0] iota_S100x1000_d0_w32)) natLt_1_32)

theorem typeOfClass_at (v34 : IVec S1x1000 32) (t : Fin 100) (c : Fin 1000) :
    typeOfClass v34 (ix2 t c) = onehot (v34 (ix2 (0 : Fin 1) c)) t := by
  show (((BitVec.setWidth 32 (IntOp.cmpi .eq (broadcastTo S100x1000 v34 broadcasts_S1x1000_S100x1000 (ix2 t c))
    (iota .tc S100x1000 32 [0] iota_S100x1000_d0_w32 (ix2 t c)))).toInt : ℝ) : EReal) = _
  rw [broadcastTo_1b_ab_apply, iota_single_apply]
  show (((BitVec.setWidth 32 (BitVec.ofBool (v34 (ix2 (0 : Fin 1) c) == BitVec.ofNat 32 t.val))).toInt : ℝ) : EReal) = _
  unfold onehot
  by_cases h : v34 (ix2 (0 : Fin 1) c) = BitVec.ofNat 32 t.val
  · have e : (BitVec.setWidth 32 (BitVec.ofBool true)).toInt = 1 := by decide
    rw [if_pos h, h, beq_self_eq_true, e]
    norm_num
  · have e : (BitVec.setWidth 32 (BitVec.ofBool false)).toInt = 0 := by decide
    rw [if_neg h, beq_eq_false_iff_ne.mpr h, e]
    norm_num

/-- The result block at (p, c). -/
theorem finalBlock_at (v15 : FVec Ideal S512x100 .f32) (v31 : FVec Ideal S512x1000 .f32) (v34 : IVec S1x1000 32)
    (p : Fin 512) (c : Fin 1000) :
    Gen.k0_pay1 (F := Ideal) v15 v31 v34 (ix2 p c)
      = v31 (ix2 p c) * ((∑ t : Fin 100, v15 (ix2 p t) * onehot (v34 (ix2 (0 : Fin 1) c)) t) + eps) := by
  show v31 (ix2 p c) * (matmul dot_S512x100_S100x1000_S512x1000_1_0_0_1_n_n none v15 (typeOfClass v34)
      (constant (F := Ideal) S512x1000 .f32 0x00000000#32) (ix2 p c) + Ideal.ofBits .f32 0x322BCC77#32) = _
  rw [matmul_zero_at dot_S512x100_S100x1000_S512x1000_1_0_0_1_n_n rfl rfl rfl rfl rfl rfl none v15 (typeOfClass v34) p c]
  refine congrArg (fun s => v31 (ix2 p c) * (s + eps)) (Finset.sum_congr rfl fun t _ => ?_)
  rw [typeOfClass_at]

end Cert.KernelIdeal.Body

end
-- ==== Proof.KernelBlocks.lean ====
/-
  The blocks the grid's points work on, as entries of the argument arrays, and the cover of the outputs.

  The grid has 8 points. Point t handles rows 512 t … 512 t + 511: its block of the [4096, 1024] input is those rows,
  and its block of each of the three outputs ([4096, 1000] twice, [4096, 100] once) is those rows too. Every other input
  is taken whole at every point: the two weight matrices as they are, and the two bias vectors and the vector of type
  ids after being re-laid as one-row matrices, so that entry (0, n) of the row is entry n of the vector.

  In every case the coordinate of a block's entry inside the array is (block index) × (block size) + (coordinate inside
  the block), axis by axis; the block indices are small closed facts about the 8 points, settled by evaluation.
  Since 4096 = 8 × 512, row r of an output lies in the block of point r / 512: the output blocks cover the arrays.
-/
import proofs.«138481_g19292993093736_cont_8to1_34_2_alg».proof.Proof.Gen.KernelIdeal.Value
import Idealize.ShloMosaic.Lib.Pipeline.Value
import Idealize.ShloMosaic.Lib.ValueIdx
import Idealize.ShloMosaic.Lib.ValueLayout

noncomputable section

namespace Cert.KernelIdeal.Blocks

open Cert.KernelIdeal Idealize.ShloMosaic Idealize.ShloMosaic.TcCoe Idealize.SL.Sem Idealize.ShloMosaic.ValueIdx

variable {F : FTy → Type} [FloatOps F]
variable (m : (ℓ : Loc nD τ sig) → Buf (Elt F) ℓ)

/-- Row p of point t's block is row 512 t + p of the array. -/
def rowAt (t : Fin cfg0.N) (p : Fin 512) : Fin 4096 :=
  ⟨512 * t.val + p.val, by have h := t.isLt; have hN : cfg0.N = 8 := Gen.N_0; have := p.isLt; omega⟩

theorem rowAt_val (t : Fin cfg0.N) (p : Fin 512) : (rowAt t p).val = 512 * t.val + p.val := rfl

/-! ## The block indices, point by point

The row-blocked arrays (the first input and the three outputs) are at block (t, 0) at point t; the arrays taken whole
are at block (0, 0) at every point. -/

theorem idx_x : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_b1 : ∀ t : Fin cfg0.N, win0_2.index t (0 : Fin 2) = 0 ∧ win0_2.index t (1 : Fin 2) = 0 :=
  (by decide +kernel : ∀ t : Fin grid0.N, _)
theorem idx_w2 : ∀ t : Fin cfg0.N, win0_3.index t (0 : Fin 2) = 0 ∧ win0_3.index t (1 : Fin 2) = 0 :=
  (by decide +kernel : ∀ t : Fin grid0.N, _)
theorem idx_b2 : ∀ t : Fin cfg0.N, win0_4.index t (0 : Fin 2) = 0 ∧ win0_4.index t (1 : Fin 2) = 0 :=
  (by decide +kernel : ∀ t : Fin grid0.N, _)
theorem idx_id : ∀ t : Fin cfg0.N, win0_5.index t (0 : Fin 2) = 0 ∧ win0_5.index t (1 : Fin 2) = 0 :=
  (by decide +kernel : ∀ t : Fin grid0.N, _)
theorem idx_o6 : ∀ t : Fin cfg0.N, win0_6.index t (0 : Fin 2) = t.val ∧ win0_6.index t (1 : Fin 2) = 0 :=
  (by decide +kernel : ∀ t : Fin grid0.N, _)
theorem idx_o7 : ∀ t : Fin cfg0.N, win0_7.index t (0 : Fin 2) = t.val ∧ win0_7.index t (1 : Fin 2) = 0 :=
  (by decide +kernel : ∀ t : Fin grid0.N, _)
theorem idx_o8 : ∀ t : Fin cfg0.N, win0_8.index t (0 : Fin 2) = t.val ∧ win0_8.index t (1 : Fin 2) = 0 :=
  (by decide +kernel : ∀ t : Fin grid0.N, _)

/-! ## The input blocks -/

/-- Entry (p, k) of point t's block of the first input is entry (512 t + p, k) of that input: nothing writes the
    input before the grid runs, and the block sits at block index (t, 0) with block size (512, 1024). -/
theorem xBlock_at (c : Dev nD) (t : Fin cfg0.N) (p : Fin 512) (k : Fin 1024) :
    (Gen.iblk m c 0 t : Vec F S512x1024 .f32) (ix2 p k)
      = (m ((c : Thread nD τ).loc main_arg0) : S4096x1024.Idx → Elt F .f32) (ix2 (rowAt t p) k) := by
  obtain ⟨e0, e1⟩ := idx_x t
  unfold Gen.iblk
  rw [View.read_apply]
  show Gen.V m c main_arg0 _ = m (c.tc.loc main_arg0) _
  rw [Gen.V_main_arg0]
  congr 1
  funext a
  apply Fin.ext
  match a with
  | ⟨0, _⟩ => show win0_0.index t 0 * 512 + 1 * p.val = 512 * t.val + p.val; rw [e0]; omega
  | ⟨1, _⟩ => show win0_0.index t 1 * 1024 + 1 * k.val = k.val; rw [e1]; omega

/-- The block of the first weight matrix is the whole matrix, at every point: block index (0, 0), block size the
    matrix's own. -/
theorem w1Block (c : Dev nD) (t : Fin cfg0.N) :
    (Gen.iblk m c 1 t : Vec F S1024x1000 .f32) = (m ((c : Thread nD τ).loc main_arg1) : S1024x1000.Idx → Elt F .f32) := by
  obtain ⟨e0, e1⟩ := idx_w1 t
  funext j
  unfold Gen.iblk
  rw [View.read_apply]
  show Gen.V m c main_arg1 _ = m (c.tc.loc main_arg1) _
  rw [Gen.V_main_arg1]
  congr 1
  funext a
  apply Fin.ext
  match a with
  | ⟨0, _⟩ => show win0_1.index t 0 * 1024 + 1 * (j 0).val = (j 0).val; rw [e0]; omega
  | ⟨1, _⟩ => show win0_1.index t 1 * 1000 + 1 * (j 1).val = (j 1).val; rw [e1]; omega

/-- The block of the second weight matrix is the whole matrix, at every point. -/
theorem w2Block (c : Dev nD) (t : Fin cfg0.N) :
    (Gen.iblk m c 3 t : Vec F S1024x100 .f32) = (m ((c : Thread nD τ).loc main_arg3) : S1024x100.Idx → Elt F .f32) := by
  obtain ⟨e0, e1⟩ := idx_w2 t
  funext j
  unfold Gen.iblk
  rw [View.read_apply]
  show Gen.V m c main_arg3 _ = m (c.tc.loc main_arg3) _
  rw [Gen.V_main_arg3]
  congr 1
  funext a
  apply Fin.ext
  match a with
  | ⟨0, _⟩ => show win0_3.index t 0 * 1024 + 1 * (j 0).val = (j 0).val; rw [e0]; omega
  | ⟨1, _⟩ => show win0_3.index t 1 * 100 + 1 * (j 1).val = (j 1).val; rw [e1]; omega

/-! ### The vectors re-laid as one-row matrices

Before the grid runs, each of the two bias vectors and the vector of type ids is copied, in row-major order, into a
matrix with one row. What the grid finds in that matrix is therefore the vector under the change of shape. -/

theorem V_b1 (c : Dev nD) : (Gen.V m c main_call0_v0 : S1x1000.Idx → Elt F .f32)
    = shapeCast S1x1000 (m ((c : Thread nD τ).loc main_arg2) : S1000.Idx → Elt F .f32) Gen.shapeCasts_S1000_S1x1000 := by
  dsimp only [Gen.V, Gen.hostOps0]; after_results; rfl

theorem V_b2 (c : Dev nD) : (Gen.V m c main_call0_v1 : S1x100.Idx → Elt F .f32)
    = shapeCast S1x100 (m ((c : Thread nD τ).loc main_arg4) : S100.Idx → Elt F .f32) Gen.shapeCasts_S100_S1x100 := by
  dsimp only [Gen.V, Gen.hostOps0]; after_results; rfl

theorem V_id (c : Dev nD) : (Gen.V m c main_call0_v2 : S1x1000.Idx → BitVec 32)
    = shapeCast S1x1000 (m ((c : Thread nD τ).loc main_arg5) : S1000.Idx → BitVec 32) Gen.shapeCasts_S1000_S1x1000 := by
  dsimp only [Gen.V, Gen.hostOps0]; after_results; rfl

/-- Entry (0, n) of the block of the first bias row is entry n of the first bias vector. -/
theorem b1Row_at (c : Dev nD) (t : Fin cfg0.N) (n : Fin 1000) :
    (Gen.iblk m c 2 t : Vec F S1x1000 .f32) (ix2 (0 : Fin 1) n)
      = (m ((c : Thread nD τ).loc main_arg2) : S1000.Idx → Elt F .f32) (ix1 n) := by
  obtain ⟨e0, e1⟩ := idx_b1 t
  unfold Gen.iblk
  rw [View.read_apply]
  show Gen.V m c main_call0_v0 _ = m (c.tc.loc main_arg2) _
  rw [V_b1]
  refine Eq.trans ?_ (shapeCast_a_1a_apply _ Gen.shapeCasts_S1000_S1x1000 (0 : Fin 1) n)
  congr 1
  funext a
  apply Fin.ext
  match a with
  | ⟨0, _⟩ => show win0_2.index t 0 * 1 + 1 * 0 = 0; rw [e0]
  | ⟨1, _⟩ => show win0_2.index t 1 * 1000 + 1 * n.val = n.val; rw [e1]; omega

/-- Entry (0, n) of the block of the second bias row is entry n of the second bias vector. -/
theorem b2Row_at (c : Dev nD) (t : Fin cfg0.N) (n : Fin 100) :
    (Gen.iblk m c 4 t : Vec F S1x100 .f32) (ix2 (0 : Fin 1) n)
      = (m ((c : Thread nD τ).loc main_arg4) : S100.Idx → Elt F .f32) (ix1 n) := by
  obtain ⟨e0, e1⟩ := idx_b2 t
  unfold Gen.iblk
  rw [View.read_apply]
  show Gen.V m c main_call0_v1 _ = m (c.tc.loc main_arg4) _
  rw [V_b2]
  refine Eq.trans ?_ (shapeCast_a_1a_apply _ Gen.shapeCasts_S100_S1x100 (0 : Fin 1) n)
  congr 1
  funext a
  apply Fin.ext
  match a with
  | ⟨0, _⟩ => show win0_4.index t 0 * 1 + 1 * 0 = 0; rw [e0]
  | ⟨1, _⟩ => show win0_4.index t 1 * 100 + 1 * n.val = n.val; rw [e1]; omega

/-- Entry (0, n) of the block of the row of type ids is the n-th type id. -/
theorem idRow_at (c : Dev nD) (t : Fin cfg0.N) (n : Fin 1000) :
    (Gen.iblk m c 5 t : Vec F S1x1000 .i32) (ix2 (0 : Fin 1) n)
      = (m ((c : Thread nD τ).loc main_arg5) : S1000.Idx → BitVec 32) (ix1 n) := by
  obtain ⟨e0, e1⟩ := idx_id t
  unfold Gen.iblk
  rw [View.read_apply]
  show Gen.V m c main_call0_v2 _ = m (c.tc.loc main_arg5) _
  rw [V_id]
  refine Eq.trans ?_ (shapeCast_a_1a_apply _ Gen.shapeCasts_S1000_S1x1000 (0 : Fin 1) n)
  congr 1
  funext a
  apply Fin.ext
  match a with
  | ⟨0, _⟩ => show win0_5.index t 0 * 1 + 1 * 0 = 0; rw [e0]
  | ⟨1, _⟩ => show win0_5.index t 1 * 1000 + 1 * n.val = n.val; rw [e1]; omega

/-! ## The output blocks: where an entry of a block sits in the array -/

/-- Entry (p, q) of point t's block of the first output sits at (512 t + p, q). -/
theorem emb6 (t : Fin cfg0.N) (p : Fin 512) (q : Fin 1000) :
    ((cfg0.win 6).blk t).view.emb (ix2 p q) = ix2 (rowAt t p) q := by
  obtain ⟨e0, e1⟩ := idx_o6 t
  funext a
  apply Fin.ext
  match a with
  | ⟨0, _⟩ => show win0_6.index t 0 * 512 + 1 * p.val = 512 * t.val + p.val; rw [e0]; omega
  | ⟨1, _⟩ => show win0_6.index t 1 * 1000 + 1 * q.val = q.val; rw [e1]; omega

/-- Entry (p, q) of point t's block of the second output sits at (512 t + p, q). -/
theorem emb7 (t : Fin cfg0.N) (p : Fin 512) (q : Fin 1000) :
    ((cfg0.win 7).blk t).view.emb (ix2 p q) = ix2 (rowAt t p) q := by
  obtain ⟨e0, e1⟩ := idx_o7 t
  funext a
  apply Fin.ext
  match a with
  | ⟨0, _⟩ => show win0_7.index t 0 * 512 + 1 * p.val = 512 * t.val + p.val; rw [e0]; omega
  | ⟨1, _⟩ => show win0_7.index t 1 * 1000 + 1 * q.val = q.val; rw [e1]; omega

/-- Entry (p, q) of point t's block of the third output sits at (512 t + p, q). -/
theorem emb8 (t : Fin cfg0.N) (p : Fin 512) (q : Fin 100) :
    ((cfg0.win 8).blk t).view.emb (ix2 p q) = ix2 (rowAt t p) q := by
  obtain ⟨e0, e1⟩ := idx_o8 t
  funext a
  apply Fin.ext
  match a with
  | ⟨0, _⟩ => show win0_8.index t 0 * 512 + 1 * p.val = 512 * t.val + p.val; rw [e0]; omega
  | ⟨1, _⟩ => show win0_8.index t 1 * 100 + 1 * q.val = q.val; rw [e1]; omega

/-! ## The cover

An index of an output array lies in point t's block exactly when, on each axis, its coordinate is in the half-open
range [index × size, index × size + size). Row r is in the range of point r / 512, and every column is in the one
column range. -/

theorem mem_blk6 (t : Fin cfg0.N) (i : S4096x1000.Idx) :
    i ∈ ((cfg0.win 6).blk t).view.set ↔ ∀ a : Fin 2, win0_6.index t a * S512x1000.size a ≤ (i a).val ∧ (i a).val < win0_6.index t a * S512x1000.size a + S512x1000.size a := by
  show i ∈ ((View.whole main_v0_0).slice (win0_6.rect t)).set ↔ _
  rw [View.set_slice_whole, Rect.mem_set_unit]
  exact Iff.rfl

theorem mem_blk7 (t : Fin cfg0.N) (i : S4096x1000.Idx) :
    i ∈ ((cfg0.win 7).blk t).view.set ↔ ∀ a : Fin 2, win0_7.index t a * S512x1000.size a ≤ (i a).val ∧ (i a).val < win0_7.index t a * S512x1000.size a + S512x1000.size a := by
  show i ∈ ((View.whole main_v0_1).slice (win0_7.rect t)).set ↔ _
  rw [View.set_slice_whole, Rect.mem_set_unit]
  exact Iff.rfl

theorem mem_blk8 (t : Fin cfg0.N) (i : S4096x100.Idx) :
    i ∈ ((cfg0.win 8).blk t).view.set ↔ ∀ a : Fin 2, win0_8.index t a * S512x100.size a ≤ (i a).val ∧ (i a).val < win0_8.index t a * S512x100.size a + S512x100.size a := by
  show i ∈ ((View.whole main_v0_2).slice (win0_8.rect t)).set ↔ _
  rw [View.set_slice_whole, Rect.mem_set_unit]
  exact Iff.rfl

/-- Every index of the first output is in the block of a point that writes its block back. -/
theorem cover6 : ∀ i : S4096x1000.Idx, ∃ t : Fin cfg0.N, (cfg0.win 6).flush t = true ∧ i ∈ ((cfg0.win 6).blk t).view.set := by
  intro i
  have h0 : (i 0).val < 4096 := (i 0).isLt
  have h1 : (i 1).val < 1000 := (i 1).isLt
  have hN : cfg0.N = 8 := Gen.N_0
  obtain ⟨t, ht⟩ : ∃ t : Fin cfg0.N, t.val = (i 0).val / 512 := ⟨⟨(i 0).val / 512, by omega⟩, rfl⟩
  obtain ⟨e0, e1⟩ := idx_o6 t
  refine ⟨t, Gen.flush0_6 t, ?_⟩
  rw [mem_blk6]
  intro a
  match a with
  | ⟨0, _⟩ => show win0_6.index t (0 : Fin 2) * 512 ≤ (i 0).val ∧ (i 0).val < win0_6.index t (0 : Fin 2) * 512 + 512; rw [e0]; omega
  | ⟨1, _⟩ => show win0_6.index t (1 : Fin 2) * 1000 ≤ (i 1).val ∧ (i 1).val < win0_6.index t (1 : Fin 2) * 1000 + 1000; rw [e1]; omega

/-- Every index of the second output is in the block of a point that writes its block back. -/
theorem cover7 : ∀ i : S4096x1000.Idx, ∃ t : Fin cfg0.N, (cfg0.win 7).flush t = true ∧ i ∈ ((cfg0.win 7).blk t).view.set := by
  intro i
  have h0 : (i 0).val < 4096 := (i 0).isLt
  have h1 : (i 1).val < 1000 := (i 1).isLt
  have hN : cfg0.N = 8 := Gen.N_0
  obtain ⟨t, ht⟩ : ∃ t : Fin cfg0.N, t.val = (i 0).val / 512 := ⟨⟨(i 0).val / 512, by omega⟩, rfl⟩
  obtain ⟨e0, e1⟩ := idx_o7 t
  refine ⟨t, Gen.flush0_7 t, ?_⟩
  rw [mem_blk7]
  intro a
  match a with
  | ⟨0, _⟩ => show win0_7.index t (0 : Fin 2) * 512 ≤ (i 0).val ∧ (i 0).val < win0_7.index t (0 : Fin 2) * 512 + 512; rw [e0]; omega
  | ⟨1, _⟩ => show win0_7.index t (1 : Fin 2) * 1000 ≤ (i 1).val ∧ (i 1).val < win0_7.index t (1 : Fin 2) * 1000 + 1000; rw [e1]; omega

/-- Every index of the third output is in the block of a point that writes its block back. -/
theorem cover8 : ∀ i : S4096x100.Idx, ∃ t : Fin cfg0.N, (cfg0.win 8).flush t = true ∧ i ∈ ((cfg0.win 8).blk t).view.set := by
  intro i
  have h0 : (i 0).val < 4096 := (i 0).isLt
  have h1 : (i 1).val < 100 := (i 1).isLt
  have hN : cfg0.N = 8 := Gen.N_0
  obtain ⟨t, ht⟩ : ∃ t : Fin cfg0.N, t.val = (i 0).val / 512 := ⟨⟨(i 0).val / 512, by omega⟩, rfl⟩
  obtain ⟨e0, e1⟩ := idx_o8 t
  refine ⟨t, Gen.flush0_8 t, ?_⟩
  rw [mem_blk8]
  intro a
  match a with
  | ⟨0, _⟩ => show win0_8.index t (0 : Fin 2) * 512 ≤ (i 0).val ∧ (i 0).val < win0_8.index t (0 : Fin 2) * 512 + 512; rw [e0]; omega
  | ⟨1, _⟩ => show win0_8.index t (1 : Fin 2) * 100 ≤ (i 1).val ∧ (i 1).val < win0_8.index t (1 : Fin 2) * 100 + 100; rw [e1]; omega

end Cert.KernelIdeal.Blocks

end
-- ==== Proof.KernelValue.lean ====
/-
  THE KERNEL'S THREE OUTPUT ARRAYS ARE THE SPECIFICATION'S ARRAYS.

  Grid point t works on rows 512 t … 512 t + 511. Its type- and class-probability blocks are the softmax of those rows'
  logits, which are entries of the whole arrays' probabilities because a row's probabilities depend on that row of
  the input only (and on all of the weights, biases and ids, which every point sees whole). In the result block the
  sum of the type probabilities against the indicator "class c has type t" picks the probability of c's type,
  because c's id is an index below 100. The eight blocks tile the 4096 rows, so each output array, after the
  run, is the specification's array.
-/
import proofs.«138481_g19292993093736_cont_8to1_34_2_alg».proof.Proof.Gen.KernelIdeal.Value
import proofs.«138481_g19292993093736_cont_8to1_34_2_alg».proof.Proof.KernelBody
import proofs.«138481_g19292993093736_cont_8to1_34_2_alg».proof.Proof.KernelBlocks
import proofs.«138481_g19292993093736_cont_8to1_34_2_alg».proof.Proof.Spec
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Body Cert.Spec Cert.Lib

variable (m : (ℓ : Loc nD τ sig) → Buf (Elt Ideal) ℓ) (ρ : Dev nD → PrngReg)

theorem hz : (![0, 0] : Fin 2 → Nat) = fun _ => 0 := funext fun a => by fin_cases a <;> rfl

/-- The six argument arrays of core c. -/
abbrev aX (c : Dev nD) : S4096x1024.Idx → EReal := m ((c : Thread nD τ).loc main_arg0)
abbrev aW1 (c : Dev nD) : S1024x1000.Idx → EReal := m ((c : Thread nD τ).loc main_arg1)
abbrev ab1 (c : Dev nD) : S1000.Idx → EReal := m ((c : Thread nD τ).loc main_arg2)
abbrev aW2 (c : Dev nD) : S1024x100.Idx → EReal := m ((c : Thread nD τ).loc main_arg3)
abbrev ab2 (c : Dev nD) : S100.Idx → EReal := m ((c : Thread nD τ).loc main_arg4)
abbrev aId (c : Dev nD) : S1000.Idx → BitVec 32 := m ((c : Thread nD τ).loc main_arg5)

/-- Every class's type id is an index below 100. -/
def IdsInRange : Prop := ∀ (c : Dev nD) (k : Fin 1000), ∃ t : Fin 100, aId m c (ix1 k) = BitVec.ofNat 32 t.val

/-! ## A point's blocks as entries of the whole arrays -/

/-- Row p of point t's class-probability block is row 512 t + p of the class probabilities. -/
theorem classBlock_eq (c : Dev nD) (t : Fin cfg0.N) (p : Fin 512) (q : Fin 1000) :
    k0_pay3 (F := Ideal) (iblk m c 0 t) (iblk m c 1 t) (iblk m c 2 t) (ix2 p q)
      = probAt (aX m c) (aW1 m c) (ab1 m c) (rowAt t p) q := by
  refine (classBlock_at (iblk m c 0 t) (iblk m c 1 t) (iblk m c 2 t) p q).trans ?_
  have e0 : (fun k : Fin 1024 => (iblk m c 0 t : Vec Ideal S512x1024 .f32) (ix2 p k)) = rowOf (aX m c) (rowAt t p) :=
    funext fun k => xBlock_at m c t p k
  have e1 : (fun (k : Fin 1024) (n : Fin 1000) => (iblk m c 1 t : Vec Ideal S1024x1000 .f32) (ix2 k n)) = matOf (aW1 m c) := by
    rw [w1Block m c t]; rfl
  have e2 : (fun n : Fin 1000 => (iblk m c 2 t : Vec Ideal S1x1000 .f32) (ix2 (0 : Fin 1) n)) = vecOf (ab1 m c) :=
    funext fun n => b1Row_at m c t n
  rw [e0, e1, e2]
  rfl

/-- Row p of point t's type-probability block is row 512 t + p of the type probabilities. -/
theorem typeBlock_eq (c : Dev nD) (t : Fin cfg0.N) (p : Fin 512) (q : Fin 100) :
    k0_pay2 (F := Ideal) (iblk m c 0 t) (iblk m c 3 t) (iblk m c 4 t) (ix2 p q)
      = probAt (aX m c) (aW2 m c) (ab2 m c) (rowAt t p) q := by
  refine (typeBlock_at (iblk m c 0 t) (iblk m c 3 t) (iblk m c 4 t) p q).trans ?_
  have e0 : (fun k : Fin 1024 => (iblk m c 0 t : Vec Ideal S512x1024 .f32) (ix2 p k)) = rowOf (aX m c) (rowAt t p) :=
    funext fun k => xBlock_at m c t p k
  have e1 : (fun (k : Fin 1024) (n : Fin 100) => (iblk m c 3 t : Vec Ideal S1024x100 .f32) (ix2 k n)) = matOf (aW2 m c) := by
    rw [w2Block m c t]; rfl
  have e2 : (fun n : Fin 100 => (iblk m c 4 t : Vec Ideal S1x100 .f32) (ix2 (0 : Fin 1) n)) = vecOf (ab2 m c) :=
    funext fun n => b2Row_at m c t n
  rw [e0, e1, e2]
  rfl

/-- The row of ids a point sees, re-laid, at class q: class q's id. -/
theorem relaid_at (v : Vec Ideal S1x1000 .i32) (q : Fin 1000) :
    k0_pay4 (F := Ideal) v (ix2 (0 : Fin 1) q) = v (ix2 (0 : Fin 1) q) := by
  show shapeCast S1x1000 v _ (ix2 (0 : Fin 1) q) = _
  rw [shapeCast_self]

theorem idRow_eq (c : Dev nD) (t : Fin cfg0.N) (q : Fin 1000) :
    k0_pay4 (F := Ideal) (iblk m c 5 t) (ix2 (0 : Fin 1) q) = aId m c (ix1 q) :=
  (relaid_at (iblk m c 5 t) q).trans (idRow_at m c t q)

/-- Row p of point t's result block is row 512 t + p of the result. -/
theorem finalBlock_eq (hid : IdsInRange m) (c : Dev nD) (t : Fin cfg0.N) (p : Fin 512) (q : Fin 1000) :
    k0_pay1 (F := Ideal) (k0_pay2 (iblk m c 0 t) (iblk m c 3 t) (iblk m c 4 t))
        (k0_pay3 (iblk m c 0 t) (iblk m c 1 t) (iblk m c 2 t)) (k0_pay4 (iblk m c 5 t)) (ix2 p q)
      = finalAt (aX m c) (aW1 m c) (ab1 m c) (aW2 m c) (ab2 m c) (aId m c) (rowAt t p) q := by
  refine (finalBlock_at _ _ _ p q).trans ?_
  unfold finalAt
  rw [classBlock_eq m c t p q, idRow_eq m c t q]
  obtain ⟨t₀, ht₀⟩ := hid c q
  rw [ht₀, ← pick_eq_sum]
  refine congrArg (fun s => probAt (aX m c) (aW1 m c) (ab1 m c) (rowAt t p) q * (s + eps))
    (Finset.sum_congr rfl fun t' _ => ?_)
  rw [typeBlock_eq m c t p t']

/-! ## What each point writes back -/

theorem flushed7_eq (c : Dev nD) (t : Fin cfg0.N) :
    (dats m 0 c).flushed 7 t
      = ((cfg0.win 7).blk t).view.read (Elt Ideal) (classArr (aX m c) (aW1 m c) (ab1 m c)) := by
  rw [Cert.KernelIdeal.Value.flushed7]
  unfold out0_7
  rw [View.canon_unit_zero hz]
  simp only [View.ld_unit_zero (S := S512x1024) hz, View.ld_unit_zero (S := S1024x1000) hz,
    View.ld_unit_zero (S := S1x1000) hz]
  funext y
  obtain ⟨p, q, rfl⟩ : ∃ (p : Fin 512) (q : Fin 1000), y = ix2 p q := ⟨y 0, y 1, eq_ix2 y⟩
  show k0_pay3 (F := Ideal) (iblk m c 0 t) (iblk m c 1 t) (iblk m c 2 t) (ix2 p q)
    = classArr (aX m c) (aW1 m c) (ab1 m c) (((cfg0.win 7).blk t).view.emb (ix2 p q))
  rw [emb7, classArr_apply]
  exact classBlock_eq m c t p q

theorem flushed8_eq (c : Dev nD) (t : Fin cfg0.N) :
    (dats m 0 c).flushed 8 t
      = ((cfg0.win 8).blk t).view.read (Elt Ideal) (typeArr (aX m c) (aW2 m c) (ab2 m c)) := by
  rw [Cert.KernelIdeal.Value.flushed8]
  unfold out0_8
  rw [View.canon_unit_zero hz]
  simp only [View.ld_unit_zero (S := S512x1024) hz, View.ld_unit_zero (S := S1024x100) hz,
    View.ld_unit_zero (S := S1x100) hz]
  funext y
  obtain ⟨p, q, rfl⟩ : ∃ (p : Fin 512) (q : Fin 100), y = ix2 p q := ⟨y 0, y 1, eq_ix2 y⟩
  show k0_pay2 (F := Ideal) (iblk m c 0 t) (iblk m c 3 t) (iblk m c 4 t) (ix2 p q)
    = typeArr (aX m c) (aW2 m c) (ab2 m c) (((cfg0.win 8).blk t).view.emb (ix2 p q))
  rw [emb8, typeArr_apply]
  exact typeBlock_eq m c t p q

theorem flushed6_eq (hid : IdsInRange m) (c : Dev nD) (t : Fin cfg0.N) :
    (dats m 0 c).flushed 6 t
      = ((cfg0.win 6).blk t).view.read (Elt Ideal)
          (finalArr (aX m c) (aW1 m c) (ab1 m c) (aW2 m c) (ab2 m c) (aId m c)) := by
  rw [Cert.KernelIdeal.Value.flushed6]
  unfold out0_6
  rw [View.canon_unit_zero hz]
  simp only [View.ld_unit_zero (S := S512x1024) hz, View.ld_unit_zero (S := S1024x1000) hz,
    View.ld_unit_zero (S := S1x1000) hz, View.ld_unit_zero (S := S1024x100) hz, View.ld_unit_zero (S := S1x100) hz]
  funext y
  obtain ⟨p, q, rfl⟩ : ∃ (p : Fin 512) (q : Fin 1000), y = ix2 p q := ⟨y 0, y 1, eq_ix2 y⟩
  show k0_pay1 (F := Ideal) (k0_pay2 (iblk m c 0 t) (iblk m c 3 t) (iblk m c 4 t))
      (k0_pay3 (iblk m c 0 t) (iblk m c 1 t) (iblk m c 2 t)) (k0_pay4 (iblk m c 5 t)) (ix2 p q)
    = finalArr (aX m c) (aW1 m c) (ab1 m c) (aW2 m c) (ab2 m c) (aId m c) (((cfg0.win 6).blk t).view.emb (ix2 p q))
  rw [emb6, finalArr_apply]
  exact finalBlock_eq m hid c t p q

/-! ## The arrays after the run -/

theorem final7 (c : Dev nD) : (dats m 0 c).arrAt 7 cfg0.N = classArr (aX m c) (aW1 m c) (ab1 m c) :=
  (dats m 0 c).arrAt_eq_of_cover 7 _ (fun t _ => flushed7_eq m c t) cover7

theorem final8 (c : Dev nD) : (dats m 0 c).arrAt 8 cfg0.N = typeArr (aX m c) (aW2 m c) (ab2 m c) :=
  (dats m 0 c).arrAt_eq_of_cover 8 _ (fun t _ => flushed8_eq m c t) cover8

theorem final6 (hid : IdsInRange m) (c : Dev nD) :
    (dats m 0 c).arrAt 6 cfg0.N = finalArr (aX m c) (aW1 m c) (ab1 m c) (aW2 m c) (ab2 m c) (aId m c) :=
  (dats m 0 c).arrAt_eq_of_cover 6 _ (fun t _ => flushed6_eq m hid c t) cover6

/-- The kernel's run, read: each output array is the specification's array of the argument arrays; the arguments
    are unchanged. -/
theorem run (hid : IdsInRange m) :
    θ_run defs (onTc (τ := τ) (main (F := Ideal))) ⟨m, fun _ => 0, ρ⟩ fun r => ∀ c : Dev nD,
      r.2.mem ((c : Thread nD τ).loc main_v0_0) = finalArr (aX m c) (aW1 m c) (ab1 m c) (aW2 m c) (ab2 m c) (aId m c)
      ∧ r.2.mem ((c : Thread nD τ).loc main_v0_1) = classArr (aX m c) (aW1 m c) (ab1 m c)
      ∧ r.2.mem ((c : Thread nD τ).loc main_v0_2) = typeArr (aX m c) (aW2 m c) (ab2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m hid c), (h c).2.1.trans (final7 m c),
      (h c).2.2.1.trans (final8 m c), (h c).2.2.2⟩)
    (Cert.KernelIdeal.Value.run_blocks m ρ)

end Cert.KernelIdeal.Whole

end
-- ==== Proof.RefTerm.lean ====
/-
  THE REFERENCE'S THREE RESULTS AS PURE TERMS OF ITS ARGUMENTS.

  The reference is a straight line of array operations: two dense layers (a product with a weight matrix plus a bias
  spread down the rows), each followed by a softmax along the rows (row maximum from minus infinity, exponential of
  the difference, row sum from zero, quotient); then the column lookup: a type id is wrapped if negative, compared
  with the range 0..99, the type probabilities' columns are gathered at the ids, and an entry whose id is outside
  the range is replaced by the not-a-number word; last, the class probabilities times (the gathered + eps).
  Here each result is the composition of those operations, written once, in the order the program applies them.
-/
import proofs.«138481_g19292993093736_cont_8to1_34_2_alg».proof.ReferenceIdeal
import Idealize.ShloMosaic.PureOps.Ideal

noncomputable section

namespace Cert.ReferenceIdeal.RefTerm

open Idealize.ShloMosaic Cert.ReferenceIdeal Cert.ReferenceIdeal.Facts₀

variable [Facts]

/-- The class head's logits: x · W1 plus b1 down the rows. -/
def logits1 (x : FVec Ideal S4096x1024 .f32) (W1 : FVec Ideal S1024x1000 .f32) (b1 : FVec Ideal S1000 .f32) :
    FVec Ideal S4096x1000 .f32 :=
  addf (Host.dotGeneral dot_S4096x1024_S1024x1000_S4096x1000_1_0_0_1_n_n none x W1)
    (broadcastInDim S4096x1000 ![0, 1] bcast_S1x1000_S4096x1000_0_1 (broadcastInDim S1x1000 ![1] bcast_S1000_S1x1000_1 b1))

/-- The type head's logits: x · W2 plus b2 down the rows. -/
def logits2 (x : FVec Ideal S4096x1024 .f32) (W2 : FVec Ideal S1024x100 .f32) (b2 : FVec Ideal S100 .f32) :
    FVec Ideal S4096x100 .f32 :=
  addf (Host.dotGeneral dot_S4096x1024_S1024x100_S4096x100_1_0_0_1_n_n none x W2)
    (broadcastInDim S4096x100 ![0, 1] bcast_S1x100_S4096x100_0_1 (broadcastInDim S1x100 ![1] bcast_S100_S1x100_1 b2))

/-- Row maxima of a 4096-by-1000 matrix, spread back over the columns. -/
def maxSpread1 (l : FVec Ideal S4096x1000 .f32) : FVec Ideal S4096x1000 .f32 :=
  broadcastInDim S4096x1000 ![0, 1] bcast_S4096x1_S4096x1000_0_1 (broadcastInDim S4096x1 ![0] bcast_S4096_S4096x1_0
    (maximumf (broadcastInDim S4096 ![] bcast_S_S4096 (constant (F := Ideal) S_ .f32 0xFF800000#32))
      (Host.reduce FloatOps.maximumf l (constant (F := Ideal) S_ .f32 0xFF800000#32) reducesTo_S4096x1000_S4096_d1 h_S_)))

/-- Row maxima of a 4096-by-100 matrix, spread back over the columns. -/
def maxSpread2 (l : FVec Ideal S4096x100 .f32) : FVec Ideal S4096x100 .f32 :=
  broadcastInDim S4096x100 ![0, 1] bcast_S4096x1_S4096x100_0_1 (broadcastInDim S4096x1 ![0] bcast_S4096_S4096x1_0
    (maximumf (broadcastInDim S4096 ![] bcast_S_S4096 (constant (F := Ideal) S_ .f32 0xFF800000#32))
      (Host.reduce FloatOps.maximumf l (constant (F := Ideal) S_ .f32 0xFF800000#32) reducesTo_S4096x100_S4096_d1 h_S_)))

/-- Softmax along the rows of a 4096-by-1000 matrix. -/
def softmax1 (l : FVec Ideal S4096x1000 .f32) : FVec Ideal S4096x1000 .f32 :=
  Host.divf (Host.exp (subf l (maxSpread1 l)))
    (broadcastInDim S4096x1000 ![0, 1] bcast_S4096x1_S4096x1000_0_1 (broadcastInDim S4096x1 ![0] bcast_S4096_S4096x1_0
      (Host.reduceAdd (Host.exp (subf l (maxSpread1 l))) (constant (F := Ideal) S_ .f32 0x00000000#32)
        reducesTo_S4096x1000_S4096_d1 h_S_)))

/-- Softmax along the rows of a 4096-by-100 matrix. -/
def softmax2 (l : FVec Ideal S4096x100 .f32) : FVec Ideal S4096x100 .f32 :=
  Host.divf (Host.exp (subf l (maxSpread2 l)))
    (broadcastInDim S4096x100 ![0, 1] bcast_S4096x1_S4096x100_0_1 (broadcastInDim S4096x1 ![0] bcast_S4096_S4096x1_0
      (Host.reduceAdd (Host.exp (subf l (maxSpread2 l))) (constant (F := Ideal) S_ .f32 0x00000000#32)
        reducesTo_S4096x100_S4096_d1 h_S_)))

/-- The class probabilities (the program's second result). -/
def cls (x : FVec Ideal S4096x1024 .f32) (W1 : FVec Ideal S1024x1000 .f32) (b1 : FVec Ideal S1000 .f32) :
    FVec Ideal S4096x1000 .f32 := softmax1 (logits1 x W1 b1)

/-- The type probabilities (the program's third result). -/
def typ (x : FVec Ideal S4096x1024 .f32) (W2 : FVec Ideal S1024x100 .f32) (b2 : FVec Ideal S100 .f32) :
    FVec Ideal S4096x100 .f32 := softmax2 (logits2 x W2 b2)

/-- The type ids with a negative id moved up by 100. -/
def wrapped (id : IVec S1000 32) : IVec S1000 32 :=
  select (cmpi .slt id (broadcastInDim S1000 ![] bcast_S_S1000 (constantI S_ 32 0#32)))
    (addi id (broadcastInDim S1000 ![] bcast_S_S1000 (constantI S_ 32 100#32))) id

/-- The wrapped ids as a column of start indices. -/
def idCol (id : IVec S1000 32) : IVec S1000x1 32 :=
  broadcastInDim S1000x1 ![0] bcast_S1000_S1000x1_0 (wrapped id)

/-- Per class: is the wrapped id between 0 and 99? -/
def inRange (id : IVec S1000 32) : IVec S1000 1 :=
  Host.reduce IntOp.andi
    (andi (cmpi .sge (idCol id) (broadcastInDim S1000x1 ![] bcast_S_S1000x1 (constantI S_ 32 0#32)))
      (cmpi .sle (idCol id) (broadcastInDim S1000x1 ![0, 1] bcast_S1x1_S1000x1_0_1
        (broadcastInDim S1x1 ![1] bcast_S1_S1x1_1 (constantI S1 32 99#32)))))
    (constantI S_ 1 1#1) reducesTo_S1000x1_S1000_d1 h_S_

/-- The type probabilities' columns looked up at the ids; not-a-number where the id is out of range. -/
def taken (p : FVec Ideal S4096x100 .f32) (id : IVec S1000 32) : FVec Ideal S4096x1000 .f32 :=
  select (broadcastInDim S4096x1000 ![1] bcast_S1000_S4096x1000_1 (inRange id))
    (Host.gather gather_S4096x100_S1000x1_S4096x1000_0_1_n_n_1_1_40961 p (idCol id))
    (broadcastInDim S4096x1000 ![] bcast_S_S4096x1000 (constant (F := Ideal) S_ .f32 0x7FC00000#32))

/-- The program's first result: class probability times (looked-up type probability plus eps). -/
def final (x : FVec Ideal S4096x1024 .f32) (W1 : FVec Ideal S1024x1000 .f32) (b1 : FVec Ideal S1000 .f32)
    (W2 : FVec Ideal S1024x100 .f32) (b2 : FVec Ideal S100 .f32) (id : IVec S1000 32) : FVec Ideal S4096x1000 .f32 :=
  mulf (cls x W1 b1)
    (addf (taken (typ x W2 b2) id)
      (broadcastInDim S4096x1000 ![] bcast_S_S4096x1000 (constant (F := Ideal) S_ .f32 0x322BCC77#32)))

end Cert.ReferenceIdeal.RefTerm

end
-- ==== Proof.RefRun.lean ====
/-
  The reference program run to its end.

  The program is one straight line of sixty-three array operations: forty of its own, and, in the place of its one
  call, the twenty-three of the column lookup it calls (the lookup's own call, the choice between an id and the id
  moved up by one hundred, written out in its place too). Run in order from any start contents, each operation
  writes one buffer of its own and reads only buffers written before it or the six arguments; so what a buffer holds
  at the end is the composition of the operations that lead to it, and an argument's buffer, which no operation
  writes, holds what it held at the start. Read at the three result buffers the composition is the product of the
  class probabilities with the looked-up type probabilities plus eps, the class probabilities, and the type
  probabilities, each as a term of the six arguments.
-/
import proofs.«138481_g19292993093736_cont_8to1_34_2_alg».proof.Proof.RefTerm
import proofs.«138481_g19292993093736_cont_8to1_34_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The sixty-three operations in program order: the two dense layers and their softmaxes (thirty-six), the column
    lookup (twenty-three: wrap a negative id, range test, gather, replace out-of-range entries), then eps added and
    the product (four). -/
abbrev ops : List (HloOp τ sig (Elt F)) :=
  [ binary main_arg0 main_arg1 main_v0 ((fun l r => Host.dotGeneral dot_S4096x1024_S1024x1000_S4096x1000_1_0_0_1_n_n none l r) : (⟨S4096x1024, .f32⟩ : BufTy).Contents (Elt F) → (⟨S1024x1000, .f32⟩ : BufTy).Contents (Elt F) → (⟨S4096x1000, .f32⟩ : BufTy).Contents (Elt F)),
    unary main_arg2 main_v1 (broadcastInDim S1x1000 ![1] bcast_S1000_S1x1000_1 : (⟨S1000, .f32⟩ : BufTy).Contents (Elt F) → (⟨S1x1000, .f32⟩ : BufTy).Contents (Elt F)),
    unary main_v1 main_v2 (broadcastInDim S4096x1000 ![0, 1] bcast_S1x1000_S4096x1000_0_1 : (⟨S1x1000, .f32⟩ : BufTy).Contents (Elt F) → (⟨S4096x1000, .f32⟩ : BufTy).Contents (Elt F)),
    binary main_v0 main_v2 main_v3 (addf : (⟨S4096x1000, .f32⟩ : BufTy).Contents (Elt F) → (⟨S4096x1000, .f32⟩ : BufTy).Contents (Elt F) → (⟨S4096x1000, .f32⟩ : BufTy).Contents (Elt F)),
    nullary main_cst (constant S_ .f32 0xFF800000#32),
    binary main_v3 main_cst main_v4 ((fun x v => Host.reduce FloatOps.maximumf x v reducesTo_S4096x1000_S4096_d1 h_S_) : (⟨S4096x1000, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v5 (broadcastInDim S4096 ![] bcast_S_S4096 : (⟨S_, .f32⟩ : BufTy).Contents (Elt F) → (⟨S4096, .f32⟩ : BufTy).Contents (Elt F)),
    binary main_v5 main_v4 main_v6 (maximumf : (⟨S4096, .f32⟩ : BufTy).Contents (Elt F) → (⟨S4096, .f32⟩ : BufTy).Contents (Elt F) → (⟨S4096, .f32⟩ : BufTy).Contents (Elt F)),
    unary main_v6 main_v7 (broadcastInDim S4096x1 ![0] bcast_S4096_S4096x1_0 : (⟨S4096, .f32⟩ : BufTy).Contents (Elt F) → (⟨S4096x1, .f32⟩ : BufTy).Contents (Elt F)),
    unary main_v7 main_v8 (broadcastInDim S4096x1000 ![0, 1] bcast_S4096x1_S4096x1000_0_1 : (⟨S4096x1, .f32⟩ : BufTy).Contents (Elt F) → (⟨S4096x1000, .f32⟩ : BufTy).Contents (Elt F)),
    binary main_v3 main_v8 main_v9 (subf : (⟨S4096x1000, .f32⟩ : BufTy).Contents (Elt F) → (⟨S4096x1000, .f32⟩ : BufTy).Contents (Elt F) → (⟨S4096x1000, .f32⟩ : BufTy).Contents (Elt F)),
    unary main_v9 main_v10 (Host.exp : (⟨S4096x1000, .f32⟩ : BufTy).Contents (Elt F) → (⟨S4096x1000, .f32⟩ : BufTy).Contents (Elt F)),
    nullary main_cst_1 (constant S_ .f32 0x00000000#32),
    binary main_v10 main_cst_1 main_v11 ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)),
    unary main_v11 main_v12 (broadcastInDim S4096x1 ![0] bcast_S4096_S4096x1_0 : (⟨S4096, .f32⟩ : BufTy).Contents (Elt F) → (⟨S4096x1, .f32⟩ : BufTy).Contents (Elt F)),
    unary main_v12 main_v13 (broadcastInDim S4096x1000 ![0, 1] bcast_S4096x1_S4096x1000_0_1 : (⟨S4096x1, .f32⟩ : BufTy).Contents (Elt F) → (⟨S4096x1000, .f32⟩ : BufTy).Contents (Elt F)),
    binary main_v10 main_v13 main_v14 (Host.divf : (⟨S4096x1000, .f32⟩ : BufTy).Contents (Elt F) → (⟨S4096x1000, .f32⟩ : BufTy).Contents (Elt F) → (⟨S4096x1000, .f32⟩ : BufTy).Contents (Elt F)),
    binary main_arg0 main_arg3 main_v15 ((fun l r => Host.dotGeneral dot_S4096x1024_S1024x100_S4096x100_1_0_0_1_n_n none l r) : (⟨S4096x1024, .f32⟩ : BufTy).Contents (Elt F) → (⟨S1024x100, .f32⟩ : BufTy).Contents (Elt F) → (⟨S4096x100, .f32⟩ : BufTy).Contents (Elt F)),
    unary main_arg4 main_v16 (broadcastInDim S1x100 ![1] bcast_S100_S1x100_1 : (⟨S100, .f32⟩ : BufTy).Contents (Elt F) → (⟨S1x100, .f32⟩ : BufTy).Contents (Elt F)),
    unary main_v16 main_v17 (broadcastInDim S4096x100 ![0, 1] bcast_S1x100_S4096x100_0_1 : (⟨S1x100, .f32⟩ : BufTy).Contents (Elt F) → (⟨S4096x100, .f32⟩ : BufTy).Contents (Elt F)),
    binary main_v15 main_v17 main_v18 (addf : (⟨S4096x100, .f32⟩ : BufTy).Contents (Elt F) → (⟨S4096x100, .f32⟩ : BufTy).Contents (Elt F) → (⟨S4096x100, .f32⟩ : BufTy).Contents (Elt F)),
    nullary main_cst_2 (constant S_ .f32 0xFF800000#32),
    binary main_v18 main_cst_2 main_v19 ((fun x v => Host.reduce FloatOps.maximumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v20 (broadcastInDim S4096 ![] bcast_S_S4096 : (⟨S_, .f32⟩ : BufTy).Contents (Elt F) → (⟨S4096, .f32⟩ : BufTy).Contents (Elt F)),
    binary main_v20 main_v19 main_v21 (maximumf : (⟨S4096, .f32⟩ : BufTy).Contents (Elt F) → (⟨S4096, .f32⟩ : BufTy).Contents (Elt F) → (⟨S4096, .f32⟩ : BufTy).Contents (Elt F)),
    unary main_v21 main_v22 (broadcastInDim S4096x1 ![0] bcast_S4096_S4096x1_0 : (⟨S4096, .f32⟩ : BufTy).Contents (Elt F) → (⟨S4096x1, .f32⟩ : BufTy).Contents (Elt F)),
    unary main_v22 main_v23 (broadcastInDim S4096x100 ![0, 1] bcast_S4096x1_S4096x100_0_1 : (⟨S4096x1, .f32⟩ : BufTy).Contents (Elt F) → (⟨S4096x100, .f32⟩ : BufTy).Contents (Elt F)),
    binary main_v18 main_v23 main_v24 (subf : (⟨S4096x100, .f32⟩ : BufTy).Contents (Elt F) → (⟨S4096x100, .f32⟩ : BufTy).Contents (Elt F) → (⟨S4096x100, .f32⟩ : BufTy).Contents (Elt F)),
    unary main_v24 main_v25 (Host.exp : (⟨S4096x100, .f32⟩ : BufTy).Contents (Elt F) → (⟨S4096x100, .f32⟩ : BufTy).Contents (Elt F)),
    nullary main_cst_4 (constant S_ .f32 0x00000000#32),
    binary main_v25 main_cst_4 main_v26 ((fun x v => Host.reduceAdd x v reducesTo_S4096x100_S4096_d1 h_S_) : (⟨S4096x100, .f32⟩ : BufTy).Contents (Elt F) → (⟨S_, .f32⟩ : BufTy).Contents (Elt F) → (⟨S4096, .f32⟩ : BufTy).Contents (Elt F)),
    unary main_v26 main_v27 (broadcastInDim S4096x1 ![0] bcast_S4096_S4096x1_0 : (⟨S4096, .f32⟩ : BufTy).Contents (Elt F) → (⟨S4096x1, .f32⟩ : BufTy).Contents (Elt F)),
    unary main_v27 main_v28 (broadcastInDim S4096x100 ![0, 1] bcast_S4096x1_S4096x100_0_1 : (⟨S4096x1, .f32⟩ : BufTy).Contents (Elt F) → (⟨S4096x100, .f32⟩ : BufTy).Contents (Elt F)),
    binary main_v25 main_v28 main_v29 (Host.divf : (⟨S4096x100, .f32⟩ : BufTy).Contents (Elt F) → (⟨S4096x100, .f32⟩ : BufTy).Contents (Elt F) → (⟨S4096x100, .f32⟩ : BufTy).Contents (Elt F)),
    TRef.nullary main_call0.c (constantI S_ 32 0#32),
    TRef.unary main_call0.c main_call0.v0 (broadcastInDim S1000 ![] bcast_S_S1000),
    TRef.binary (TRef.of (T := ⟨S1000, .i32⟩) main_arg5) main_call0.v0 main_call0.v1 (cmpi .slt),
    TRef.nullary main_call0.c_0 (constantI S_ 32 100#32),
    TRef.unary main_call0.c_0 main_call0.v2 (broadcastInDim S1000 ![] bcast_S_S1000),
    TRef.binary (TRef.of (T := ⟨S1000, .i32⟩) main_arg5) main_call0.v2 main_call0.v3 addi,
    TRef.ternary main_call0.v1 main_call0.v3 (TRef.of (T := ⟨S1000, .i32⟩) main_arg5) main_call0.call0.v0 select,
    TRef.unary main_call0.call0.v0 main_call0.v5 (broadcastInDim S1000x1 ![0] bcast_S1000_S1000x1_0),
    TRef.nullary main_call0.c_1 (constantI S1 32 99#32),
    TRef.nullary main_call0.c_2 (constantI S_ 32 0#32),
    TRef.unary main_call0.c_2 main_call0.v6 (broadcastInDim S1000x1 ![] bcast_S_S1000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000x1 ![0, 1] bcast_S1x1_S1000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000x1_S1000_d1 h_S_),
    TRef.binary (TRef.of (T := ⟨S4096x100, .f32⟩) main_v29) main_call0.v5 main_call0.v13 (fun x i => Host.gather gather_S4096x100_S1000x1_S4096x1000_0_1_n_n_1_1_40961 x i),
    TRef.unary main_call0.v12 main_call0.v14 (broadcastInDim S4096x1000 ![1] bcast_S1000_S4096x1000_1),
    TRef.nullary main_call0.cst (constant S_ .f32 0x7FC00000#32),
    TRef.unary main_call0.cst main_call0.v15 (broadcastInDim S4096x1000 ![] bcast_S_S4096x1000),
    TRef.ternary main_call0.v14 main_call0.v13 main_call0.v15 main_call0.v16 select,
    nullary main_cst_5 (constant S_ .f32 0x322BCC77#32),
    unary main_cst_5 main_v31 (broadcastInDim S4096x1000 ![] bcast_S_S4096x1000 : (⟨S_, .f32⟩ : BufTy).Contents (Elt F) → (⟨S4096x1000, .f32⟩ : BufTy).Contents (Elt F)),
    binary main_v30 main_v31 main_v32 (addf : (⟨S4096x1000, .f32⟩ : BufTy).Contents (Elt F) → (⟨S4096x1000, .f32⟩ : BufTy).Contents (Elt F) → (⟨S4096x1000, .f32⟩ : BufTy).Contents (Elt F)),
    binary main_v14 main_v32 main_v33 (mulf : (⟨S4096x1000, .f32⟩ : BufTy).Contents (Elt F) → (⟨S4096x1000, .f32⟩ : BufTy).Contents (Elt F) → (⟨S4096x1000, .f32⟩ : BufTy).Contents (Elt F)) ]

set_option maxRecDepth 8192 in
/-- The program is that line: the two called bodies unfold in place, and sequencing re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the one core only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., binary_bufs_sub ..⟩

/-! ## What the line leaves in the three result buffers and in the arguments

Each statement is read off the fold: at a buffer, the last operation that writes it gives its function of what the
buffers it reads held before, and every other operation leaves the buffer as it was. The three heavy array operations
(the reductions along a row and the gather) stay folded while the two sides are compared: the comparison never needs
to look inside them. -/

attribute [local irreducible] Host.reduce Host.reduceAdd Host.gather in
set_option maxRecDepth 8192 in
set_option maxHeartbeats 4000000 in
theorem final_eq (V : Valuation τ sig (Elt Ideal)) :
    after ops V (main_v33 : DevRef τ sig)
      = RefTerm.final (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

attribute [local irreducible] Host.reduce Host.reduceAdd Host.gather in
set_option maxRecDepth 8192 in
set_option maxHeartbeats 4000000 in
theorem cls_eq (V : Valuation τ sig (Elt Ideal)) :
    after ops V (main_v14 : DevRef τ sig)
      = RefTerm.cls (V (main_arg0 : DevRef τ sig)) (V (main_arg1 : DevRef τ sig)) (V (main_arg2 : DevRef τ sig)) := by
  after_results_simp
  rfl

attribute [local irreducible] Host.reduce Host.reduceAdd Host.gather in
set_option maxRecDepth 8192 in
set_option maxHeartbeats 4000000 in
theorem typ_eq (V : Valuation τ sig (Elt Ideal)) :
    after ops V (main_v29 : DevRef τ sig)
      = RefTerm.typ (V (main_arg0 : DevRef τ sig)) (V (main_arg3 : DevRef τ sig)) (V (main_arg4 : DevRef τ sig)) := by
  after_results_simp
  rfl

set_option maxRecDepth 8192 in
set_option maxHeartbeats 4000000 in
theorem arg0_eq (V : Valuation τ sig (Elt Ideal)) :
    after ops V (main_arg0 : DevRef τ sig) = V (main_arg0 : DevRef τ sig) := by
  after_results_simp

set_option maxRecDepth 8192 in
set_option maxHeartbeats 4000000 in
theorem arg1_eq (V : Valuation τ sig (Elt Ideal)) :
    after ops V (main_arg1 : DevRef τ sig) = V (main_arg1 : DevRef τ sig) := by
  after_results_simp

set_option maxRecDepth 8192 in
set_option maxHeartbeats 4000000 in
theorem arg2_eq (V : Valuation τ sig (Elt Ideal)) :
    after ops V (main_arg2 : DevRef τ sig) = V (main_arg2 : DevRef τ sig) := by
  after_results_simp

set_option maxRecDepth 8192 in
set_option maxHeartbeats 4000000 in
theorem arg3_eq (V : Valuation τ sig (Elt Ideal)) :
    after ops V (main_arg3 : DevRef τ sig) = V (main_arg3 : DevRef τ sig) := by
  after_results_simp

set_option maxRecDepth 8192 in
set_option maxHeartbeats 4000000 in
theorem arg4_eq (V : Valuation τ sig (Elt Ideal)) :
    after ops V (main_arg4 : DevRef τ sig) = V (main_arg4 : DevRef τ sig) := by
  after_results_simp

set_option maxRecDepth 8192 in
set_option maxHeartbeats 4000000 in
theorem arg5_eq (V : Valuation τ sig (Elt Ideal)) :
    after ops V (main_arg5 : DevRef τ sig) = V (main_arg5 : DevRef τ sig) := by
  after_results_simp

/-- From any memory with zero counters, every weakly fair execution of the program terminates with the first result
    at the product term, the second at the class probabilities, the third at the type probabilities, each of the six
    arguments' start contents, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = RefTerm.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14) = RefTerm.cls (m ((c.tc : Thread nD τ).loc main_arg0)) (m ((c.tc : Thread nD τ).loc main_arg1)) (m ((c.tc : Thread nD τ).loc main_arg2))
      ∧ r.2.mem ((c.tc : Thread nD τ).loc main_v29) = RefTerm.typ (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v33).trans (final_eq _), (h c main_v14).trans (cls_eq _),
      (h c main_v29).trans (typ_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_seq scopedRefs_eq scopedSems_eq defs main (fun _ => ops) main_eq (fun _ => ops_sub) m ρ)

end Cert.ReferenceIdeal.RefRun

end
-- ==== Proof.LibColGather.lean ====
/-
  A GATHER OF WHOLE COLUMNS OF A MATRIX, READ AT AN ENTRY.

  From an R-by-N matrix take, for each of C start indices, one whole column: the slices have R rows and one column,
  the sliced column axis is collapsed, and the start indices are held as a C-by-1 array of integer words, one index
  vector of length one per result column. The R-by-C result holds at (r, c) the matrix's entry in row r and in the
  column that start index c names — the word read as a signed integer and clamped into 0 .. N - 1, as a gather clamps
  every start index so that the slice fits. Generic in the sizes and in the element type.
-/
import Idealize.ShloMosaic.Lib.ValueIdx

noncomputable section

namespace Cert.Lib

open Idealize.ShloMosaic Idealize.ShloMosaic.ValueIdx

section ColumnGather
variable {α : Type}

/-- The dimension numbers of the gather of columns, for a matrix [R, N], start indices [C, 1] and a result [R, C]:
    result axis 0 runs over the slice's rows, matrix axis 1 is the indexed and collapsed one, the index vector lies
    along axis 1 of the start indices, and a slice is R rows by one column. -/
abbrev colDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- The gather of columns at (r, c): the matrix's entry in row r and in the column that start index c names, the
    word read signed and clamped into 0 .. N - 1. On matrix axis 0 the slice starts at 0 and the offset is the
    result's row; on axis 1 the start is the clamped index and there is no offset. -/
theorem gather_col_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (c : Fin C) :
    Host.gather (colDims R N C wf) x idx (ix2 r c)
      = x (ix2 r ⟨min (idx (ix2 c (0 : Fin 1))).toInt.toNat (N - 1), by omega⟩) := by
  have h0 : (colDims R N C wf).start (ix2 r c) idx (0 : Fin 2) + (colDims R N C wf).batchCoord (ix2 r c) (0 : Fin 2)
      + (colDims R N C wf).offCoord (ix2 r c) (0 : Fin 2) = r.val := by
    rw [GatherDims.batchCoord_eq_zero _ _ _ List.not_mem_nil]
    rw [GatherDims.offCoord, GatherDims.start]
    have hn : ¬ ((0 : Fin 2) ∈ ([1] : List (Fin 2))) := by decide
    rw [dif_neg (show ¬ ((0 : Fin 2) ∈ (colDims R N C wf).startIndexMap) from hn),
      dif_pos (show (0 : Fin 2) ∈ (colDims R N C wf).sKept from
        (GatherDims.mem_sKept _ _).mpr ⟨hn, List.not_mem_nil⟩)]
    show 0 + 0 + r.val = r.val
    omega
  have h1 : (colDims R N C wf).start (ix2 r c) idx (1 : Fin 2) + (colDims R N C wf).batchCoord (ix2 r c) (1 : Fin 2)
      + (colDims R N C wf).offCoord (ix2 r c) (1 : Fin 2) = min (idx (ix2 c (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N C wf).startIndexMap from List.mem_singleton.mpr rfl)]
    have hsi : (colDims R N C wf).siIdx (ix2 r c) ⟨List.idxOf (1 : Fin 2) (colDims R N C wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0
  | ⟨1, _⟩ => exact h1

end ColumnGather

end Cert.Lib

end
-- ==== Proof.RefValue.lean ====
/-
  THE REFERENCE'S THREE RESULTS, READ AT AN ENTRY, ARE THE SPECIFICATION'S NUMBERS.

  Entry (r, n) of a dense layer is the row of the input against column n of the weights plus the bias, and a softmax
  along the rows read at (r, c) is the softmax of row r at c: so the class and the type probabilities are, entry by
  entry, the softmax of the row's logits. For the column lookup the hypothesis is that every type id is a number
  t below 100 written as a 32-bit word. Such a word is not negative as a signed integer, so it is left unwrapped;
  it lies between 0 and 99, so the range test says yes; and clamping it into 0..99 changes nothing, so the gather
  of columns reads the type probabilities at column t. That entry is what the specification picks by the id, and
  the product with the class probability, after adding eps, is the specification's final entry.
-/
import proofs.«138481_g19292993093736_cont_8to1_34_2_alg».proof.Proof.Spec
import proofs.«138481_g19292993093736_cont_8to1_34_2_alg».proof.Proof.RefTerm
import proofs.«138481_g19292993093736_cont_8to1_34_2_alg».proof.Proof.LibRowReads
import proofs.«138481_g19292993093736_cont_8to1_34_2_alg».proof.Proof.LibSoftmaxRows
import proofs.«138481_g19292993093736_cont_8to1_34_2_alg».proof.Proof.LibHostRead
import proofs.«138481_g19292993093736_cont_8to1_34_2_alg».proof.Proof.LibColGather
import proofs.«138481_g19292993093736_cont_8to1_34_2_alg».proof.Proof.Gen.ReferenceIdeal
import Idealize.ShloMosaic.Lib.ValueIdx
import Idealize.ShloMosaic.Lib.Pipeline.Value

noncomputable section

open scoped BigOperators

namespace Cert.ReferenceIdeal.RefValue

open Cert.ReferenceIdeal Cert.Spec Cert.Lib Idealize.ShloMosaic Idealize.ShloMosaic.ValueIdx
open Cert.ReferenceIdeal.Facts₀

/-! ## A number below 100 as a 32-bit word

Three facts about the word of t < 100, each checked on the hundred cases: it is not below zero as a signed integer;
it is at least 0 and at most 99; read as a signed integer and clamped into 0 .. 99 it is t. -/

section Words

theorem slt_zero_ofNat : ∀ t : Fin 100, IntOp.cmpi .slt (BitVec.ofNat 32 t.val) 0#32 = 0#1 := by decide
theorem inRange_ofNat : ∀ t : Fin 100,
    IntOp.andi (IntOp.cmpi .sge (BitVec.ofNat 32 t.val) 0#32) (IntOp.cmpi .sle (BitVec.ofNat 32 t.val) 99#32) = 1#1 := by
  decide
theorem clamp_ofNat : ∀ t : Fin 100, min (BitVec.ofNat 32 t.val).toInt.toNat (100 - 1) = t.val := by decide

end Words

/-! ## The ids, wrapped, as a column, and tested against the range -/

section Ids

/-- An id that is a number below 100 is not negative: wrapping leaves it as it is. -/
theorem wrapped_apply (id : IVec S1000 32) (c : Fin 1000) (t : Fin 100) (h : id (ix1 c) = BitVec.ofNat 32 t.val) :
    RefTerm.wrapped id (ix1 c) = BitVec.ofNat 32 t.val := by
  unfold RefTerm.wrapped
  rw [select_apply]
  show Scalar.select (IntOp.cmpi .slt (id (ix1 c)) (broadcastInDim S1000 ![] _ (constantI S_ 32 0#32) (ix1 c))) _ (id (ix1 c)) = _
  rw [splat_apply, h]
  show Scalar.select (IntOp.cmpi .slt (BitVec.ofNat 32 t.val) 0#32) _ _ = _
  rw [slt_zero_ofNat t, select_zero]

/-- The column of start indices holds, at (c, 0), the wrapped id of class c. -/
theorem idCol_apply (id : IVec S1000 32) (c : Fin 1000) (z : Fin 1) :
    RefTerm.idCol id (ix2 c z) = RefTerm.wrapped id (ix1 c) :=
  col_apply ![0] rfl _ _ c z

/-- A conjunction along the one-entry rows of a 1000-by-1 array of bits, from the bit one, is one at c when row c's
    entry is one. -/
theorem reduceAnd_col (g : IVec S1000x1 1) (c : Fin 1000) (hg : ∀ z : Fin 1, g (ix2 c z) = 1#1) :
    Host.reduce IntOp.andi g (constantI S_ 1 1#1) reducesTo_S1000x1_S1000_d1 h_S_ (ix1 c) = 1#1 := by
  have hred : S1000x1.Reduces [1] S1000 := by decide
  rw [Host.reduce_eq_fold_single IntOp.andi g _ reducesTo_S1000x1_S1000_d1 hred h_S_ (ix1 c)]
  have hconst : (g ∘ hred.lift (ix1 c)) = fun _ => 1#1 := by
    funext k
    show g (hred.lift (ix1 c) k) = 1#1
    rw [lift_row hred c k]
    exact hg _
  rw [hconst, Finset.fold_const]
  · split <;> rfl
  · rfl

/-- An id that is a number below 100 passes the range test. -/
theorem inRange_apply (id : IVec S1000 32) (c : Fin 1000) (t : Fin 100) (h : id (ix1 c) = BitVec.ofNat 32 t.val) :
    RefTerm.inRange id (ix1 c) = 1#1 := by
  unfold RefTerm.inRange
  refine reduceAnd_col _ c fun z => ?_
  show IntOp.andi (IntOp.cmpi .sge (RefTerm.idCol id (ix2 c z)) (broadcastInDim S1000x1 ![] _ (constantI S_ 32 0#32) (ix2 c z)))
    (IntOp.cmpi .sle (RefTerm.idCol id (ix2 c z)) (broadcastInDim S1000x1 ![0, 1] _ (broadcastInDim S1x1 ![1] _ (constantI S1 32 99#32)) (ix2 c z))) = 1#1
  rw [idCol_apply, wrapped_apply id c t h, splat_apply, bcastInDim_vecRows_apply]
  exact inRange_ofNat t

end Ids

/-! ## The two heads: logits, then the softmax of each row -/

section Heads

/-- The class head's logit (r, n): row r of the input against column n of the weights, plus bias n. -/
theorem logits1_apply (x : FVec Ideal S4096x1024 .f32) (W1 : FVec Ideal S1024x1000 .f32) (b1 : FVec Ideal S1000 .f32)
    (r : Fin 4096) (n : Fin 1000) :
    RefTerm.logits1 x W1 b1 (ix2 r n) = logit (rowOf x r) (matOf W1) (vecOf b1) n := by
  unfold RefTerm.logits1
  rw [addf_apply, dotGeneral_at _ rfl rfl rfl rfl rfl rfl, bcastInDim_vecRows_apply]
  rfl

/-- The type head's logit (r, n), likewise. -/
theorem logits2_apply (x : FVec Ideal S4096x1024 .f32) (W2 : FVec Ideal S1024x100 .f32) (b2 : FVec Ideal S100 .f32)
    (r : Fin 4096) (n : Fin 100) :
    RefTerm.logits2 x W2 b2 (ix2 r n) = logit (rowOf x r) (matOf W2) (vecOf b2) n := by
  unfold RefTerm.logits2
  rw [addf_apply, dotGeneral_at _ rfl rfl rfl rfl rfl rfl, bcastInDim_vecRows_apply]
  rfl

/-- The softmax along the rows of a 4096-by-1000 matrix, at (r, c): the softmax of row r at c. -/
theorem softmax1_apply (l : FVec Ideal S4096x1000 .f32) (r : Fin 4096) (c : Fin 1000) :
    RefTerm.softmax1 l (ix2 r c) = softmaxRow (fun k => l (ix2 r k)) c := by
  have hred : S4096x1000.Reduces [1] S4096 := by decide
  unfold RefTerm.softmax1 RefTerm.maxSpread1
  exact hostSoftmax_apply l reducesTo_S4096x1000_S4096_d1 hred h_S_ bcast_S_S4096 bcast_S4096_S4096x1_0
    bcast_S4096x1_S4096x1000_0_1 r c

/-- The softmax along the rows of a 4096-by-100 matrix, at (r, c). -/
theorem softmax2_apply (l : FVec Ideal S4096x100 .f32) (r : Fin 4096) (c : Fin 100) :
    RefTerm.softmax2 l (ix2 r c) = softmaxRow (fun k => l (ix2 r k)) c := by
  have hred : S4096x100.Reduces [1] S4096 := by decide
  unfold RefTerm.softmax2 RefTerm.maxSpread2
  exact hostSoftmax_apply l reducesTo_S4096x100_S4096_d1 hred h_S_ bcast_S_S4096 bcast_S4096_S4096x1_0
    bcast_S4096x1_S4096x100_0_1 r c

/-- The class probabilities at (r, c). -/
theorem cls_apply (x : FVec Ideal S4096x1024 .f32) (W1 : FVec Ideal S1024x1000 .f32) (b1 : FVec Ideal S1000 .f32)
    (r : Fin 4096) (c : Fin 1000) : RefTerm.cls x W1 b1 (ix2 r c) = probAt x W1 b1 r c := by
  unfold RefTerm.cls
  rw [softmax1_apply]
  unfold probAt
  exact congrArg (fun f => softmaxRow f c) (funext fun k => logits1_apply x W1 b1 r k)

/-- The type probabilities at (r, c). -/
theorem typ_apply (x : FVec Ideal S4096x1024 .f32) (W2 : FVec Ideal S1024x100 .f32) (b2 : FVec Ideal S100 .f32)
    (r : Fin 4096) (c : Fin 100) : RefTerm.typ x W2 b2 (ix2 r c) = probAt x W2 b2 r c := by
  unfold RefTerm.typ
  rw [softmax2_apply]
  unfold probAt
  exact congrArg (fun f => softmaxRow f c) (funext fun k => logits2_apply x W2 b2 r k)

/-- The class probabilities are the specification's array. -/
theorem cls_eq (x : FVec Ideal S4096x1024 .f32) (W1 : FVec Ideal S1024x1000 .f32) (b1 : FVec Ideal S1000 .f32) :
    RefTerm.cls x W1 b1 = Spec.classArr x W1 b1 := by
  funext i
  obtain ⟨r, c, rfl⟩ : ∃ (r : Fin 4096) (c : Fin 1000), i = ix2 r c := ⟨i 0, i 1, eq_ix2 i⟩
  rw [classArr_apply]
  exact cls_apply x W1 b1 r c

/-- The type probabilities are the specification's array. -/
theorem typ_eq (x : FVec Ideal S4096x1024 .f32) (W2 : FVec Ideal S1024x100 .f32) (b2 : FVec Ideal S100 .f32) :
    RefTerm.typ x W2 b2 = Spec.typeArr x W2 b2 := by
  funext i
  obtain ⟨r, c, rfl⟩ : ∃ (r : Fin 4096) (c : Fin 100), i = ix2 r c := ⟨i 0, i 1, eq_ix2 i⟩
  rw [typeArr_apply]
  exact typ_apply x W2 b2 r c

end Heads

/-! ## The lookup by id and the last product -/

section Final

/-- A vector of b numbers repeated down a rows: at (r, c), the vector's entry c. -/
theorem bcastInDim_vecCols_apply {α : Type} {a b : Nat} (h : (⟨1, ![b]⟩ : Shape).BroadcastsInDim ⟨2, ![a, b]⟩ ![1])
    (v : (⟨1, ![b]⟩ : Shape).Idx → α) (r : Fin a) (c : Fin b) :
    broadcastInDim ⟨2, ![a, b]⟩ ![1] h v (ix2 r c) = v (ix1 c) := by
  refine broadcastInDim_apply ![1] h v (ix2 r c) (ix1 c) ?_
  intro ax
  match ax with
  | ⟨0, _⟩ =>
    show c.val = if b = 1 then 0 else c.val
    split
    · have := c.isLt; omega
    · rfl

/-- The gather of the type probabilities' columns at (r, c), when start index c is the word of t < 100: p (r, t). -/
theorem gather_apply (p : FVec Ideal S4096x100 .f32) (idx : IVec S1000x1 32) (r : Fin 4096) (c : Fin 1000) (t : Fin 100)
    (h : idx (ix2 c (0 : Fin 1)) = BitVec.ofNat 32 t.val) :
    Host.gather gather_S4096x100_S1000x1_S4096x1000_0_1_n_n_1_1_40961 p idx (ix2 r c) = p (ix2 r t) := by
  refine (gather_col_apply (by decide) gather_S4096x100_S1000x1_S4096x1000_0_1_n_n_1_1_40961_wf p idx r c).trans ?_
  refine congrArg (fun k => p (ix2 r k)) (Fin.ext ?_)
  show min (idx (ix2 c (0 : Fin 1))).toInt.toNat (100 - 1) = t.val
  rw [h]
  exact clamp_ofNat t

/-- The looked-up array at (r, c) for an id that is t < 100: the range test passes, so the entry is the gathered one,
    p (r, t). -/
theorem taken_apply (p : FVec Ideal S4096x100 .f32) (id : IVec S1000 32) (r : Fin 4096) (c : Fin 1000) (t : Fin 100)
    (h : id (ix1 c) = BitVec.ofNat 32 t.val) : RefTerm.taken p id (ix2 r c) = p (ix2 r t) := by
  unfold RefTerm.taken
  rw [select_apply, bcastInDim_vecCols_apply, inRange_apply id c t h, select_one]
  exact gather_apply p _ r c t ((idCol_apply id c 0).trans (wrapped_apply id c t h))

/-- The first result at (r, c): class probability times (the type probability the id picks, plus eps). -/
theorem final_apply (x : FVec Ideal S4096x1024 .f32) (W1 : FVec Ideal S1024x1000 .f32) (b1 : FVec Ideal S1000 .f32)
    (W2 : FVec Ideal S1024x100 .f32) (b2 : FVec Ideal S100 .f32) (id : IVec S1000 32) (r : Fin 4096) (c : Fin 1000)
    (t : Fin 100) (h : id (ix1 c) = BitVec.ofNat 32 t.val) :
    RefTerm.final x W1 b1 W2 b2 id (ix2 r c) = finalAt x W1 b1 W2 b2 id r c := by
  unfold RefTerm.final
  rw [mulf_apply, addf_apply, cls_apply, taken_apply _ id r c t h, typ_apply, bcast_const_apply]
  unfold finalAt
  rw [h, pick_ofNat]
  rfl

/-- The first result is the specification's array, when every id is a number below 100. -/
theorem final_eq (x : FVec Ideal S4096x1024 .f32) (W1 : FVec Ideal S1024x1000 .f32) (b1 : FVec Ideal S1000 .f32)
    (W2 : FVec Ideal S1024x100 .f32) (b2 : FVec Ideal S100 .f32) (id : IVec S1000 32)
    (hid : ∀ c : Fin 1000, ∃ t : Fin 100, id (ix1 c) = BitVec.ofNat 32 t.val) :
    RefTerm.final x W1 b1 W2 b2 id = Spec.finalArr x W1 b1 W2 b2 id := by
  funext i
  obtain ⟨r, c, rfl⟩ : ∃ (r : Fin 4096) (c : Fin 1000), i = ix2 r c := ⟨i 0, i 1, eq_ix2 i⟩
  obtain ⟨t, ht⟩ := hid c
  rw [finalArr_apply]
  exact final_apply x W1 b1 W2 b2 id r c t ht

end Final

end Cert.ReferenceIdeal.RefValue

end
-- ==== Proof.IndexRange.lean ====
/-
  From the input condition to a range of indices.

  The input condition is one truth value: the conjunction of seven "for every entry" tests. Five of them say that
  a real array has no infinite entry; the last two say, of the array of 1000 type ids, that every id is at least 0
  and that every id is below 100, both read as signed 32-bit integers. When the conjunction is true each of the
  seven tests is true, and a "for every entry" test that is true holds at each entry. So an id w satisfies
  0 ≤ w < 100 as a signed integer; a 32-bit word that is nonnegative as a signed integer reads the same unsigned,
  hence w is the word of a natural number t < 100.
-/
import proofs.«138481_g19292993093736_cont_8to1_34_2_alg».proof.Pre_finite_inputs
import proofs.«138481_g19292993093736_cont_8to1_34_2_alg».proof.Proof.Gen.Pre_finite_inputs
import Idealize.ShloMosaic.PureOps.Ideal
import Idealize.ShloMosaic.Lib.ReduceAll
import Idealize.ShloMosaic.Lib.ValueIdx

namespace Cert.IndexRange

open Idealize.ShloMosaic Idealize.ShloMosaic.ValueIdx Cert.Pre_finite_inputs

/-- An array with no axes has exactly one index. -/
instance scalarIdx_subsingleton : Subsingleton S_.Idx := ⟨fun a b => funext fun d => d.elim0⟩

/-- A 32-bit word whose signed value lies in [0, 100) has an unsigned value below 100. -/
theorem toNat_lt_100 (w : BitVec 32) (h0 : (0#32 : BitVec 32).toInt ≤ w.toInt)
    (h1 : w.toInt < (100#32 : BitVec 32).toInt) : w.toNat < 100 := by
  have e0 : (0#32 : BitVec 32).toInt = 0 := by decide
  have e1 : (100#32 : BitVec 32).toInt = 100 := by decide
  rw [e0] at h0
  rw [e1] at h1
  have hlt := w.isLt
  rw [BitVec.toInt_eq_toNat_cond] at h0 h1
  split at h0 <;> omega

/-- A 32-bit word whose signed value lies in [0, 100) is the word of a natural number below 100. -/
theorem word_below_100 (w : BitVec 32) (h0 : (0#32 : BitVec 32).toInt ≤ w.toInt)
    (h1 : w.toInt < (100#32 : BitVec 32).toInt) : ∃ t : Fin 100, w = BitVec.ofNat 32 t.val := by
  have hw : w.toNat < 100 := toNat_lt_100 w h0 h1
  refine ⟨⟨w.toNat, hw⟩, ?_⟩
  apply BitVec.eq_of_toNat_eq
  rw [BitVec.toNat_ofNat]
  show w.toNat = w.toNat % 2 ^ 32
  omega

/-- Under the input condition, the id at position c satisfies both comparisons: it is at least 0 and below 100,
    signed. The condition's value at its one index is a left-nested conjunction; its last two conjuncts are the
    two "for every entry" tests on the ids, and each of those, being true, is true at position c, where the
    compared constant array reads as the constant itself. -/
theorem id_signed_range {F : FTy → Type} [FloatOps F] (a0 : FVec F S4096x1024 .f32) (a1 : FVec F S1024x1000 .f32)
    (a2 : FVec F S1000 .f32) (a3 : FVec F S1024x100 .f32) (a4 : FVec F S100 .f32) (a5 : IVec S1000 32)
    (h : Cert.Pre_finite_inputs.fn (F := F) a0 a1 a2 a3 a4 a5 = fun _ => 1#1) (c : Fin 1000) :
    (0#32 : BitVec 32).toInt ≤ (a5 (ix1 c)).toInt ∧ (a5 (ix1 c)).toInt < (100#32 : BitVec 32).toInt := by
  have e := congrFun h ix0
  dsimp only [fn, fn_part1] at e
  unfold Idealize.ShloMosaic.andi at e
  simp only [IntOp.andi_eq_one] at e
  obtain ⟨⟨-, hge⟩, hlt⟩ := e
  have g : IntOp.cmpi .sge (a5 (ix1 c)) (0#32) = 1#1 := Host.reduce_andi_all _ _ _ _ _ hge (ix1 c)
  have l : IntOp.cmpi .slt (a5 (ix1 c)) (100#32) = 1#1 := Host.reduce_andi_all _ _ _ _ _ hlt (ix1 c)
  exact ⟨IntOp.cmpi_sge.1 g, IntOp.cmpi_slt.1 l⟩

/-- Under the input condition every type id is the 32-bit word of an index below 100. -/
theorem id_below_100 {F : FTy → Type} [FloatOps F] (a0 : FVec F S4096x1024 .f32) (a1 : FVec F S1024x1000 .f32)
    (a2 : FVec F S1000 .f32) (a3 : FVec F S1024x100 .f32) (a4 : FVec F S100 .f32) (a5 : IVec S1000 32)
    (h : Cert.Pre_finite_inputs.fn (F := F) a0 a1 a2 a3 a4 a5 = fun _ => 1#1) (c : Fin 1000) :
    ∃ t : Fin 100, a5 (ix1 c) = BitVec.ofNat 32 t.val :=
  word_below_100 _ (id_signed_range a0 a1 a2 a3 a4 a5 h c).1 (id_signed_range a0 a1 a2 a3 a4 a5 h c).2

/-- The same as a bound on the id read unsigned. -/
theorem id_toNat_lt_100 {F : FTy → Type} [FloatOps F] (a0 : FVec F S4096x1024 .f32) (a1 : FVec F S1024x1000 .f32)
    (a2 : FVec F S1000 .f32) (a3 : FVec F S1024x100 .f32) (a4 : FVec F S100 .f32) (a5 : IVec S1000 32)
    (h : Cert.Pre_finite_inputs.fn (F := F) a0 a1 a2 a3 a4 a5 = fun _ => 1#1) (c : Fin 1000) :
    (a5 (ix1 c)).toNat < 100 :=
  toNat_lt_100 _ (id_signed_range a0 a1 a2 a3 a4 a5 h c).1 (id_signed_range a0 a1 a2 a3 a4 a5 h c).2

end Cert.IndexRange
-- ==== Proof.lean ====
/-
  A TWO-HEADED CLASSIFIER WITH A TYPE LOOKUP: THE FUSED KERNEL AGAINST THE PLAIN REFERENCE.

  Both programs take 4096 input rows of 1024 numbers, a class head (W1, b1: 1000 classes), a type head (W2, b2: 100
  types) and, for every class, the id of its type. Both return the class probabilities (softmax of x·W1 + b1 along
  each row), the type probabilities (softmax of x·W2 + b2) and

      result(r, c) = classProb(r, c) · (typeProb(r, id(c)) + eps).

  They differ in how typeProb(r, id(c)) is obtained and in how the rows are walked. The reference gathers the columns
  of the type probabilities at the ids (after moving a negative id up by 100, and writing not-a-number where the id is
  then outside 0..99). The kernel walks the rows 512 at a time and, in place of a gather, multiplies the type
  probabilities by the 100-by-1000 matrix of zeros and ones whose entry (t, c) says "id(c) = t": entry (r, c) of that
  product is the sum over t of typeProb(r, t) times the indicator.

  When every id is an index below 100 — which the precondition states — the two are one number: the reference's wrap
  and range test do nothing and its gather reads column id(c); in the kernel's sum every term but the one at
  t = id(c) is a product with zero, and x · 0 = 0, x · 1 = x hold for every extended real, so no finiteness of the
  inputs is used anywhere. Outside that range the claim would be false: for a negative id the reference reads a
  wrapped column where the kernel's sum is empty, and beyond 99 the reference writes not-a-number.

  Everything else is the same function written twice: a product into a zero accumulator is the product; a row
  maximum started from minus infinity is unchanged by meeting minus infinity once more; a softmax of a row of the
  whole array is the softmax of that row of a 512-row block; the eight blocks tile the 4096 rows.

  The modules: Spec (the result entry by entry, and the sum-against-an-indicator law), KernelBody (one grid point's
  three blocks at an entry), KernelBlocks (a point's blocks as entries of the argument arrays; the blocks cover the
  arrays), KernelValue (the kernel's three output arrays are the specification's), RefTerm / RefRun (the reference's
  run ends at the composition of its operations), RefValue (that composition, entry by entry, is the
  specification), IndexRange (the precondition says every id is an index below 100).
-/
import proofs.«138481_g19292993093736_cont_8to1_34_2_alg».proof.Defs
import proofs.«138481_g19292993093736_cont_8to1_34_2_alg».proof.Proof.Gen.Kernel
import proofs.«138481_g19292993093736_cont_8to1_34_2_alg».proof.Proof.Gen.Kernel.Skeleton
import proofs.«138481_g19292993093736_cont_8to1_34_2_alg».proof.Proof.Gen.Kernel.Launch
import proofs.«138481_g19292993093736_cont_8to1_34_2_alg».proof.Proof.Gen.Kernel.Points
import proofs.«138481_g19292993093736_cont_8to1_34_2_alg».proof.Proof.Gen.Kernel.Frame
import proofs.«138481_g19292993093736_cont_8to1_34_2_alg».proof.Proof.Gen.KernelIdeal
import proofs.«138481_g19292993093736_cont_8to1_34_2_alg».proof.Proof.Gen.KernelIdeal.Skeleton
import proofs.«138481_g19292993093736_cont_8to1_34_2_alg».proof.Proof.Gen.KernelIdeal.Launch
import proofs.«138481_g19292993093736_cont_8to1_34_2_alg».proof.Proof.Gen.KernelIdeal.Points
import proofs.«138481_g19292993093736_cont_8to1_34_2_alg».proof.Proof.Gen.KernelIdeal.Frame
import proofs.«138481_g19292993093736_cont_8to1_34_2_alg».proof.Proof.Gen.KernelIdeal.Value
import proofs.«138481_g19292993093736_cont_8to1_34_2_alg».proof.Proof.Gen.ReferenceIdeal
import proofs.«138481_g19292993093736_cont_8to1_34_2_alg».proof.Proof.Gen.Pre_finite_inputs
import proofs.«138481_g19292993093736_cont_8to1_34_2_alg».proof.Proof.KernelValue
import proofs.«138481_g19292993093736_cont_8to1_34_2_alg».proof.Proof.RefRun
import proofs.«138481_g19292993093736_cont_8to1_34_2_alg».proof.Proof.RefValue
import proofs.«138481_g19292993093736_cont_8to1_34_2_alg».proof.Proof.IndexRange
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments as they were: its run, the results dropped. -/
theorem frame_ri : Cert.frame_ReferenceIdeal := fun m ρ _ =>
  (θ_run Cert.ReferenceIdeal.defs _ _).mono (fun _ h c => (h c).2.2.2) (Cert.ReferenceIdeal.RefRun.run m ρ)

/-- The precondition makes every class's type id an index below 100. -/
theorem ids_in_range (m : (ℓ : Loc Cert.KernelIdeal.nD Cert.KernelIdeal.τ Cert.KernelIdeal.sig) → Buf (Elt Ideal) ℓ)
    (h : Cert.Pre_KernelIdeal m) : Cert.KernelIdeal.Whole.IdsInRange m :=
  fun c k => Cert.IndexRange.id_below_100 _ _ _ _ _ _ (h c) k

/-- From memories that agree on the arguments both programs end at the specification's three arrays. -/
theorem algebraic : Cert.algebraic_KernelIdeal_ReferenceIdeal := by
  intro m ρ m' ρ' hpre hagree
  have hid := ids_in_range m hpre
  refine ⟨_, _, _, Cert.KernelIdeal.Whole.run m ρ hid, ?_⟩
  refine (θ_run Cert.ReferenceIdeal.defs _ _).mono (fun _ h c => ?_) (Cert.ReferenceIdeal.RefRun.run m' ρ')
  obtain ⟨h33, h14, h29, hargs⟩ := h c
  obtain ⟨a0, a1, a2, a3, a4, a5⟩ := hagree c
  refine ⟨h33.trans ?_, h14.trans ?_, h29.trans ?_, hargs⟩
  · rw [a0, a1, a2, a3, a4, a5]
    exact Cert.ReferenceIdeal.RefValue.final_eq _ _ _ _ _ _ (hid c)
  · rw [a0, a1, a2]
    exact Cert.ReferenceIdeal.RefValue.cls_eq _ _ _
  · rw [a0, a3, a4]
    exact Cert.ReferenceIdeal.RefValue.typ_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
